-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x128 : Shape := ⟨4, ![16, 128, 128, 128]⟩
abbrev S_ : Shape := ⟨0, ![]⟩

class Facts : Prop where
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  h_S_ : 0 < S_.numel

variable [Facts]

def fn {F : FTy → Type} [FloatOps F] (main_arg0 : FVec F S16x128x128x128 .f32) : IVec S_ 1 :=
  let main_v0 : FVec F S16x128x128x128 .f32 := Host.absf main_arg0
  let main_cst : FVec F S_ .f32 := constant S_ .f32 0x7F800000#32
  let main_v1 : FVec F S16x128x128x128 .f32 := broadcastInDim S16x128x128x128 ![] bcast_S_S16x128x128x128 main_cst
  let main_v2 : IVec S16x128x128x128 1 := cmpf .olt main_v0 main_v1
  let main_c : IVec S_ 1 := constantI S_ 1 1#1
  let main_v3 : IVec S_ 1 := (fun x v => Host.reduce IntOp.andi x v reducesTo_S16x128x128x128_S_d0_1_2_3 h_S_) main_v2 main_c
  main_v3
-- ==== Kernel.lean ====
abbrev S16x128x128x128 : Shape := ⟨4, ![16, 128, 128, 128]⟩
abbrev S16x128x16384 : Shape := ⟨3, ![16, 128, 16384]⟩
abbrev S16x1x128 : Shape := ⟨3, ![16, 1, 128]⟩
abbrev S1x128x16384 : Shape := ⟨3, ![1, 128, 16384]⟩
abbrev S1x1x128 : Shape := ⟨3, ![1, 1, 128]⟩
abbrev S128x16384 : Shape := ⟨2, ![128, 16384]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1 : Shape := ⟨1, ![1]⟩
abbrev S1x1 : Shape := ⟨2, ![1, 1]⟩
abbrev S16x128 : Shape := ⟨2, ![16, 128]⟩
abbrev S16x128x1x1 : Shape := ⟨4, ![16, 128, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S16x128x128x128, .f32⟩
  | .hbm, ⟨1, _⟩ => ⟨S16x128x16384, .f32⟩
  | .hbm, ⟨2, _⟩ => ⟨S16x1x128, .f32⟩
  | .hbm, ⟨3, _⟩ => ⟨S16x128, .f32⟩
  | .hbm, ⟨4, _⟩ => ⟨S16x128x1x1, .f32⟩
  | .local _ .vmem, ⟨0, _⟩ => ⟨S1x128x16384, .f32⟩
  | .local _ .vmem, ⟨1, _⟩ => ⟨S1x128x16384, .f32⟩
  | .local _ .vmem, ⟨2, _⟩ => ⟨S1x1x128, .f32⟩
  | .local _ .vmem, ⟨3, _⟩ => ⟨S1x1x128, .f32⟩
  | _, _ => ⟨S16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x128x128x128_S16x128x16384 : S16x128x128x128.ShapeCasts S16x128x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  bitsLt_bf16_f32 : FTy.bits .bf16 < FTy.bits .f32
  reduces_S128x16384_S128 : S128x16384.Reduces [1] S128
  shapeCasts_S128_S128x1 : S128.ShapeCasts S128x1
  transposes_S128x1_p1_0_S1x128 : S128x1.Transposes [1, 0] S1x128
  broadcasts_S128x1_S128x128 : S128x1.Broadcasts S128x128
  broadcasts_S1x128_S128x128 : S1x128.Broadcasts S128x128
  iota_S128x128_d0_w32 : S128x128.Iotas .tc 32 [0]
  iota_S128x128_d1_w32 : S128x128.Iotas .tc 32 [1]
  natLt_1_32 : 1 < 32
  reduces_S128x128_S128 : S128x128.Reduces [1] S128
  reduces_S128x1_S1 : S128x1.Reduces [0] S1
  shapeCasts_S1_S1x1 : S1.ShapeCasts S1x1
  broadcasts_S1x1_S128x128 : S1x1.Broadcasts S128x128
  reduces_S128x128_S128_2 : S128x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S16x1x128_S16x128 : S16x1x128.ShapeCasts S16x128
  shapeCasts_S16x128_S16x128x1x1 : S16x128.ShapeCasts S16x128x1x1
  dot_S128x16384_S128x16384_S128x128_1_1_0_0_n_n_wf : DotDims.WF S128x16384 S128x16384 S128x128 [1] [1] [0] [0] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S16x128x16384.size a
  hwx0_0 : ∀ i : grid0.Coords, EltTy.bits .f32 = 32 ∨ (Rect.block (s := S16x128x16384) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S16x1x128.size a
  hwx0_1 : ∀ i : grid0.Coords, EltTy.bits .f32 = 32 ∨ (Rect.block (s := S16x1x128) S1x1x128.size (cc0_transform_1 i) (hinb0_1 i)).WholeWords (EltTy.packing .f32)

variable [Facts₀]

def dot_S128x16384_S128x16384_S128x128_1_1_0_0_n_n : DotDims S128x16384 S128x16384 S128x128 where
  lhsContracting := [1]
  rhsContracting := [1]
  lhsNonContracting := [0]
  rhsNonContracting := [0]
  lhsBatch := []
  rhsBatch := []
  wf := dot_S128x16384_S128x16384_S128x128_1_1_0_0_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x128 : Shape := ⟨4, ![16, 128, 128, 128]⟩
abbrev S16x16384x128 : Shape := ⟨3, ![16, 16384, 128]⟩
abbrev S_ : Shape := ⟨0, ![]⟩
abbrev S16x128 : Shape := ⟨2, ![16, 128]⟩
abbrev S16x1x128 : Shape := ⟨3, ![16, 1, 128]⟩
abbrev S16x128x128 : Shape := ⟨3, ![16, 128, 128]⟩
abbrev S128x128 : Shape := ⟨2, ![128, 128]⟩
abbrev S16 : Shape := ⟨1, ![16]⟩
abbrev S16x1x1 : Shape := ⟨3, ![16, 1, 1]⟩
abbrev S1x128x128 : Shape := ⟨3, ![1, 128, 128]⟩
abbrev S16x128x1x1 : Shape := ⟨4, ![16, 128, 1, 1]⟩

abbrev nBuf : Space → Nat
  | .hbm => 144
  | .vmem => 0
  | .smem => 0
  | _ => 0

abbrev hbmTy0_0 (i : Nat) : BufTy := match i % 128 with
  | 0 => ⟨S16x128x128x128, .f32⟩
  | 1 => ⟨S16x128x128x128, .f32⟩
  | 2 => ⟨S16x16384x128, .f32⟩
  | 3 => ⟨S_, .f32⟩
  | 4 => ⟨S16x128, .f32⟩
  | 5 => ⟨S16x1x128, .f32⟩
  | 6 => ⟨S_, .f32⟩
  | 7 => ⟨S16x1x128, .f32⟩
  | 8 => ⟨S16x1x128, .f32⟩
  | 9 => ⟨S16x16384x128, .f32⟩
  | 10 => ⟨S16x16384x128, .f32⟩
  | 11 => ⟨S16x128x128, .f32⟩
  | 12 => ⟨S_, .f32⟩
  | 13 => ⟨S16x128x128, .f32⟩
  | 14 => ⟨S16x128x128, .f32⟩
  | 15 => ⟨S128x128, .i32⟩
  | 16 => ⟨S128x128, .i32⟩
  | 17 => ⟨S128x128, .i1⟩
  | 18 => ⟨S16x128x128, .i1⟩
  | 19 => ⟨S_, .f32⟩
  | 20 => ⟨S16x128x128, .f32⟩
  | 21 => ⟨S16x128x128, .f32⟩
  | 22 => ⟨S_, .f32⟩
  | 23 => ⟨S16, .f32⟩
  | 24 => ⟨S16x1x1, .f32⟩
  | 25 => ⟨S16x128x128, .f32⟩
  | 26 => ⟨S16x128x128, .f32⟩
  | 27 => ⟨S128x128, .i32⟩
  | 28 => ⟨S128x128, .i32⟩
  | 29 => ⟨S_, .i32⟩
  | 30 => ⟨S128x128, .i32⟩
  | 31 => ⟨S128x128, .i32⟩
  | 32 => ⟨S128x128, .i1⟩
  | 33 => ⟨S128x128, .f32⟩
  | 34 => ⟨S16x128x128, .f32⟩
  | 35 => ⟨S16x128x128, .f32⟩
  | 36 => ⟨S_, .f32⟩
  | 37 => ⟨S128x128, .f32⟩
  | 38 => ⟨S128x128, .f32⟩
  | 39 => ⟨S1x128x128, .f32⟩
  | 40 => ⟨S16x128x128, .f32⟩
  | 41 => ⟨S16x128x128, .f32⟩
  | 42 => ⟨S_, .f32⟩
  | 43 => ⟨S16x128x128, .f32⟩
  | 44 => ⟨S16x128x128, .f32⟩
  | 45 => ⟨S16x128x128, .f32⟩
  | 46 => ⟨S_, .f32⟩
  | 47 => ⟨S16x128x128, .f32⟩
  | 48 => ⟨S16x128x128, .f32⟩
  | 49 => ⟨S16x128x128, .f32⟩
  | 50 => ⟨S16x128x128, .f32⟩
  | 51 => ⟨S_, .f32⟩
  | 52 => ⟨S128x128, .f32⟩
  | 53 => ⟨S128x128, .f32⟩
  | 54 => ⟨S1x128x128, .f32⟩
  | 55 => ⟨S16x128x128, .f32⟩
  | 56 => ⟨S16x128x128, .f32⟩
  | 57 => ⟨S_, .f32⟩
  | 58 => ⟨S16x128x128, .f32⟩
  | 59 => ⟨S16x128x128, .f32⟩
  | 60 => ⟨S16x128x128, .f32⟩
  | 61 => ⟨S_, .f32⟩
  | 62 => ⟨S16x128x128, .f32⟩
  | 63 => ⟨S16x128x128, .f32⟩
  | 64 => ⟨S16x128x128, .f32⟩
  | 65 => ⟨S16x128x128, .f32⟩
  | 66 => ⟨S_, .f32⟩
  | 67 => ⟨S128x128, .f32⟩
  | 68 => ⟨S128x128, .f32⟩
  | 69 => ⟨S1x128x128, .f32⟩
  | 70 => ⟨S16x128x128, .f32⟩
  | 71 => ⟨S16x128x128, .f32⟩
  | 72 => ⟨S_, .f32⟩
  | 73 => ⟨S16x128x128, .f32⟩
  | 74 => ⟨S16x128x128, .f32⟩
  | 75 => ⟨S16x128x128, .f32⟩
  | 76 => ⟨S_, .f32⟩
  | 77 => ⟨S16x128x128, .f32⟩
  | 78 => ⟨S16x128x128, .f32⟩
  | 79 => ⟨S16x128x128, .f32⟩
  | 80 => ⟨S16x128x128, .f32⟩
  | 81 => ⟨S_, .f32⟩
  | 82 => ⟨S128x128, .f32⟩
  | 83 => ⟨S128x128, .f32⟩
  | 84 => ⟨S1x128x128, .f32⟩
  | 85 => ⟨S16x128x128, .f32⟩
  | 86 => ⟨S16x128x128, .f32⟩
  | 87 => ⟨S_, .f32⟩
  | 88 => ⟨S16x128x128, .f32⟩
  | 89 => ⟨S16x128x128, .f32⟩
  | 90 => ⟨S16x128x128, .f32⟩
  | 91 => ⟨S_, .f32⟩
  | 92 => ⟨S16x128x128, .f32⟩
  | 93 => ⟨S16x128x128, .f32⟩
  | 94 => ⟨S16x128x128, .f32⟩
  | 95 => ⟨S16x128x128, .f32⟩
  | 96 => ⟨S_, .f32⟩
  | 97 => ⟨S128x128, .f32⟩
  | 98 => ⟨S128x128, .f32⟩
  | 99 => ⟨S1x128x128, .f32⟩
  | 100 => ⟨S16x128x128, .f32⟩
  | 101 => ⟨S16x128x128, .f32⟩
  | 102 => ⟨S_, .f32⟩
  | 103 => ⟨S16x128x128, .f32⟩
  | 104 => ⟨S16x128x128, .f32⟩
  | 105 => ⟨S16x128x128, .f32⟩
  | 106 => ⟨S_, .f32⟩
  | 107 => ⟨S16x128x128, .f32⟩
  | 108 => ⟨S16x128x128, .f32⟩
  | 109 => ⟨S16x128x128, .f32⟩
  | 110 => ⟨S16x128x128, .f32⟩
  | 111 => ⟨S_, .f32⟩
  | 112 => ⟨S128x128, .f32⟩
  | 113 => ⟨S128x128, .f32⟩
  | 114 => ⟨S1x128x128, .f32⟩
  | 115 => ⟨S16x128x128, .f32⟩
  | 116 => ⟨S16x128x128, .f32⟩
  | 117 => ⟨S_, .f32⟩
  | 118 => ⟨S16x128x128, .f32⟩
  | 119 => ⟨S16x128x128, .f32⟩
  | 120 => ⟨S16x128x128, .f32⟩
  | 121 => ⟨S_, .f32⟩
  | 122 => ⟨S16x128x128, .f32⟩
  | 123 => ⟨S16x128x128, .f32⟩
  | 124 => ⟨S16x128x128, .f32⟩
  | 125 => ⟨S128x128, .i32⟩
  | 126 => ⟨S128x128, .i32⟩
  | 127 => ⟨S128x128, .i1⟩
  | _ => ⟨S16x128x128x128, .f32⟩

abbrev hbmTy0_1 (i : Nat) : BufTy := match i % 128 with
  | 0 => ⟨S16x128x128, .i1⟩
  | 1 => ⟨S_, .f32⟩
  | 2 => ⟨S16x128x128, .f32⟩
  | 3 => ⟨S16x128x128, .f32⟩
  | 4 => ⟨S_, .f32⟩
  | 5 => ⟨S16, .f32⟩
  | 6 => ⟨S16, .f32⟩
  | 7 => ⟨S16x1x1, .f32⟩
  | 8 => ⟨S16x128x128, .f32⟩
  | 9 => ⟨S16x128x128, .f32⟩
  | 10 => ⟨S_, .f32⟩
  | 11 => ⟨S16x128, .f32⟩
  | 12 => ⟨S_, .f32⟩
  | 13 => ⟨S16x128, .f32⟩
  | 14 => ⟨S16x128, .f32⟩
  | 15 => ⟨S16x128x1x1, .f32⟩
  | _ => ⟨S16x128x128x128, .f32⟩

abbrev hbmTy (i : Nat) : BufTy := match i / 128 with
  | 0 => hbmTy0_0 i
  | 1 => hbmTy0_1 i
  | _ => ⟨S16x128x128x128, .f32⟩

abbrev bufTy : (tb : Table) → Fin (tcTables nBuf tb) → BufTy
  | .hbm, ⟨i, _⟩ => hbmTy i
  | _, _ => ⟨S16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_7 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_8 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_10 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_11 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_12 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_14 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_15 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_16 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_17 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_18 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_19 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_20 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_21 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_22 : Ref sig .tc := ⟨.hbm, 129, rfl⟩
abbrev main_v104 : Ref sig .tc := ⟨.hbm, 130, rfl⟩
abbrev main_v105 : Ref sig .tc := ⟨.hbm, 131, rfl⟩
abbrev main_cst_23 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_24 : Ref sig .tc := ⟨.hbm, 138, rfl⟩
abbrev main_v111 : Ref sig .tc := ⟨.hbm, 139, rfl⟩
abbrev main_cst_25 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]

class Facts₀ : Prop where
  transposes_S16x128x128x128_S16x128x128x128_0_2_3_1 : S16x128x128x128.Transposes [0, 2, 3, 1] S16x128x128x128
  shapeCasts_S16x128x128x128_S16x16384x128 : S16x128x128x128.ShapeCasts S16x16384x128
  reducesTo_S16x16384x128_S16x128_d1 : S16x16384x128.ReducesTo [1] S16x128
  h_S_ : 0 < S_.numel
  bcast_S16x128_S16x1x128_0_2 : S16x128.BroadcastsInDim S16x1x128 (![0, 2] : Fin 2 → Fin S16x1x128.rank)
  bcast_S_S16x1x128 : S_.BroadcastsInDim S16x1x128 (![] : Fin 0 → Fin S16x1x128.rank)
  bcast_S16x1x128_S16x16384x128_0_1_2 : S16x1x128.BroadcastsInDim S16x16384x128 (![0, 1, 2] : Fin 3 → Fin S16x16384x128.rank)
  bcast_S_S16x128x128 : S_.BroadcastsInDim S16x128x128 (![] : Fin 0 → Fin S16x128x128.rank)
  bcast_S128x128_S16x128x128_1_2 : S128x128.BroadcastsInDim S16x128x128 (![1, 2] : Fin 2 → Fin S16x128x128.rank)
  reducesTo_S16x128x128_S16_d1_2 : S16x128x128.ReducesTo [1, 2] S16
  bcast_S16_S16x1x1_0 : S16.BroadcastsInDim S16x1x1 (![0] : Fin 1 → Fin S16x1x1.rank)
  bcast_S16x1x1_S16x128x128_0_1_2 : S16x1x1.BroadcastsInDim S16x128x128 (![0, 1, 2] : Fin 3 → Fin S16x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  reducesTo_S16x128x128_S16x128_d1 : S16x128x128.ReducesTo [1] S16x128
  bcast_S_S16x128 : S_.BroadcastsInDim S16x128 (![] : Fin 0 → Fin S16x128.rank)
  shapeCasts_S16x128_S16x128x1x1 : S16x128.ShapeCasts S16x128x1x1
  dot_S16x16384x128_S16x16384x128_S16x128x128_1_1_2_2_0_0_wf : DotDims.WF S16x16384x128 S16x16384x128 S16x128x128 [1] [1] [2] [2] [0] [0]
  dot_S16x128x128_S16x128x128_S16x128x128_2_1_1_2_0_0_wf : DotDims.WF S16x128x128 S16x128x128 S16x128x128 [2] [1] [1] [2] [0] [0]

variable [Facts₀]

def dot_S16x16384x128_S16x16384x128_S16x128x128_1_1_2_2_0_0 : DotDims S16x16384x128 S16x16384x128 S16x128x128 where
  lhsContracting := [1]
  rhsContracting := [1]
  lhsNonContracting := [2]
  rhsNonContracting := [2]
  lhsBatch := [0]
  rhsBatch := [0]
  wf := dot_S16x16384x128_S16x16384x128_S16x128x128_1_1_2_2_0_0_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf

class Facts : Prop extends Facts₀ where

variable [Facts]
-- ==== Proof.Spec.lean ====
/-
  The function both programs compute, stated once over plain matrices.

  For one batch entry let X : 128 × 16384 be the channel-by-position matrix of the input. Both programs form a
  128 × 128 covariance S of X, divide it by its trace, run six coupled Newton–Schulz steps
      T = 3·I − Z·Y,   Y' = (½·Y) ∘ T  (an entrywise product),   Z' = (½·T)·Z,
  from Y = S / tr S and Z = I, and return the column means of √(tr Y₇) · Y₇. Everything here is over the extended
  reals with the ideal instance's division and square root; the float words 3, ½ and 128 are kept as the words
  both programs spell, so they are never evaluated.
-/
import Idealize.ShloMosaic.PureOps.Ideal
import Idealize.ShloMosaic.PureOps.Ideal.Laws

noncomputable section

open scoped BigOperators

namespace Cert.Spec

open Idealize.ShloMosaic

/-- A 128 × 128 matrix of extended reals, by coordinates. -/
abbrev Mat := Fin 128 → Fin 128 → EReal

/-- The words 3.0, 0.5 and 128.0 as both programs spell them. -/
abbrev three : EReal := Ideal.ofBits .f32 0x40400000#32
abbrev half : EReal := Ideal.ofBits .f32 0x3F000000#32
abbrev c128 : EReal := Ideal.ofBits .f32 0x43000000#32

/-- The identity matrix. -/
def eye : Mat := fun c d => if c = d then 1 else 0
/-- The matrix product. -/
def mm (A B : Mat) : Mat := fun c d => ∑ k : Fin 128, A c k * B k d
/-- T = 3·I − Z·Y. -/
def tmat (Z Y : Mat) : Mat := fun c d => three * eye c d - mm Z Y c d
/-- Y' = (½·Y) ∘ T, entry by entry. -/
def ynext (Y T : Mat) : Mat := fun c d => (half * Y c d) * T c d
/-- Z' = (½·T)·Z. -/
def znext (T Z : Mat) : Mat := mm (fun c d => half * T c d) Z
/-- The trace. -/
def trace (A : Mat) : EReal := ∑ c : Fin 128, A c c
/-- A matrix divided by its own trace. -/
def normalize (S : Mat) : Mat := fun c d => Ideal.div (S c d) (trace S)
/-- The mean of each column: the column sum divided by 128. -/
def colMean (A : Mat) : Fin 128 → EReal := fun d => Ideal.div (∑ c : Fin 128, A c d) c128

/-! The six steps from Y₁ = Y and Z₁ = I, each stage named. -/
def T1 (Y : Mat) : Mat := tmat eye Y
def Y2 (Y : Mat) : Mat := ynext Y (T1 Y)
def Z2 (Y : Mat) : Mat := znext (T1 Y) eye
def T2 (Y : Mat) : Mat := tmat (Z2 Y) (Y2 Y)
def Y3 (Y : Mat) : Mat := ynext (Y2 Y) (T2 Y)
def Z3 (Y : Mat) : Mat := znext (T2 Y) (Z2 Y)
def T3 (Y : Mat) : Mat := tmat (Z3 Y) (Y3 Y)
def Y4 (Y : Mat) : Mat := ynext (Y3 Y) (T3 Y)
def Z4 (Y : Mat) : Mat := znext (T3 Y) (Z3 Y)
def T4 (Y : Mat) : Mat := tmat (Z4 Y) (Y4 Y)
def Y5 (Y : Mat) : Mat := ynext (Y4 Y) (T4 Y)
def Z5 (Y : Mat) : Mat := znext (T4 Y) (Z4 Y)
def T5 (Y : Mat) : Mat := tmat (Z5 Y) (Y5 Y)
def Y6 (Y : Mat) : Mat := ynext (Y5 Y) (T5 Y)
def Z6 (Y : Mat) : Mat := znext (T5 Y) (Z5 Y)
def T6 (Y : Mat) : Mat := tmat (Z6 Y) (Y6 Y)
def Y7 (Y : Mat) : Mat := ynext (Y6 Y) (T6 Y)

/-- The result row from the last iterate: column means of √(tr A) · A. -/
def finish (A : Mat) : Fin 128 → EReal := colMean (fun c d => Ideal.sqrt (trace A) * A c d)
/-- The whole tail from the trace-normalized covariance. -/
def tailOut (Y : Mat) : Fin 128 → EReal := finish (Y7 Y)

/-! ## The trace, as each program takes it -/

/-- Multiplying by the identity's entries and summing everything leaves the diagonal: y · 0 = 0 and y · 1 = y hold for
    every extended real, the infinities included. -/
theorem sum_mul_eye (A : Mat) : ∑ c : Fin 128, ∑ d : Fin 128, A c d * eye c d = trace A := by
  unfold trace eye
  refine Finset.sum_congr rfl fun c _ => ?_
  simp only [mul_ite, mul_one, mul_zero]
  rw [Finset.sum_ite_eq]
  simp

/-- Selecting the diagonal against zero and summing everything leaves the diagonal. -/
theorem sum_ite_diag (A : Mat) : ∑ c : Fin 128, ∑ d : Fin 128, (if c = d then A c d else 0) = trace A := by
  unfold trace
  refine Finset.sum_congr rfl fun c _ => ?_
  rw [Finset.sum_ite_eq]
  simp

end Cert.Spec

end
-- ==== Proof.Cov.lean ====
/-
  The two covariance formulas agree on finite data.

  For a channel-by-position matrix X with N = 16384 positions, write s_c for the sum of row c. The kernel forms
      (Σₙ X(c,n)·X(d,n)) · 2⁻¹⁴ − (s_c · 2⁻¹⁴) · (s_d · 2⁻¹⁴),
  the reference first centres each row by its mean s_c / N and then forms
      (Σₙ (X(c,n) − s_c/N) · (X(d,n) − s_d/N)) / N.
  Over the reals both are E[x_c x_d] − E[x_c]·E[x_d]: expand the centred product, and use Σₙ 1 = N. The expansion
  distributes a product over a difference, which fails at the infinities, so the entries are assumed real. The float
  word 0x38800000 is exactly 2⁻¹⁴ = 1/16384 and 0x46800000 is exactly 16384, so the kernel's folded reciprocal and the
  reference's division are the same real operation.
-/
import proofs.«156180_j91319594647822_2_alg».proof.Proof.Spec

noncomputable section

open scoped BigOperators

namespace Cert.Spec

open Idealize.ShloMosaic

/-- The word the kernel multiplies by, and the word the reference divides by. -/
abbrev wInv : EReal := Ideal.ofBits .f32 0x38800000#32
abbrev wN : EReal := Ideal.ofBits .f32 0x46800000#32

/-- 0x38800000 denotes 2⁻¹⁴ = 1/16384 exactly. -/
theorem wInv_eq : wInv = ((1 / 16384 : ℝ) : EReal) := by
  simp [Ideal.ofBits, Ideal.ieee, -EReal.coe_mul]; norm_num

/-- 0x46800000 denotes 16384 exactly. -/
theorem wN_eq : wN = ((16384 : ℝ) : EReal) := by
  simp [Ideal.ofBits, Ideal.ieee, -EReal.coe_mul]; norm_num

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's covariance of a 128 × 16384 matrix. -/
def covK (X : Fin 128 → Fin 16384 → EReal) : Mat := fun c d =>
  (∑ n : Fin 16384, X c n * X d n) * wInv - ((∑ n : Fin 16384, X c n) * wInv) * ((∑ n : Fin 16384, X d n) * wInv)

/-- The reference's covariance: rows centred by their means first. -/
def covR (X : Fin 128 → Fin 16384 → EReal) : Mat := fun c d =>
  Ideal.div (∑ n : Fin 16384, (X c n - Ideal.div (∑ k : Fin 16384, X c k) wN) * (X d n - Ideal.div (∑ k : Fin 16384, X d k) wN)) wN

/-- The identity over the reals, for any finite index set of N elements. -/
theorem real_cov {ι : Type*} [Fintype ι] (a b : ι → ℝ) (N : ℝ) (hN : (Fintype.card ι : ℝ) = N) (hN0 : N ≠ 0) :
    (∑ i, a i * b i) * (1 / N) - ((∑ i, a i) * (1 / N)) * ((∑ i, b i) * (1 / N))
      = (∑ i, (a i - (∑ j, a j) * (1 / N)) * (b i - (∑ j, b j) * (1 / N))) * (1 / N) := by
  set A := ∑ j, a j with hA
  set B := ∑ j, b j with hB
  have h : ∀ i, (a i - A * (1 / N)) * (b i - B * (1 / N))
      = a i * b i - (B * (1 / N)) * a i - (A * (1 / N)) * b i + (A * (1 / N)) * (B * (1 / N)) := fun i => by ring
  simp only [h, Finset.sum_add_distrib, Finset.sum_sub_distrib, ← Finset.mul_sum, Finset.sum_const, Finset.card_univ,
    nsmul_eq_mul, hN, ← hA, ← hB]
  field_simp
  ring

/-- On real entries the two covariances are one matrix. -/
theorem cov_eq (X : Fin 128 → Fin 16384 → EReal) (hX : ∀ c n, ∃ r : ℝ, X c n = (r : EReal)) : covK X = covR X := by
  choose f hf using hX
  obtain rfl : X = fun c n => (f c n : EReal) := funext fun c => funext fun n => hf c n
  funext c d
  unfold covK covR
  rw [wInv_eq, wN_eq]
  simp only [Ideal.div_coe (by norm_num : (16384 : ℝ) ≠ 0), ← coe_sum, ← EReal.coe_mul, ← EReal.coe_sub]
  exact congrArg _ (real_cov (f c) (f d) 16384 (by simp) (by norm_num))

end Cert.Spec

end
-- ==== Proof.KernelRun.lean ====
import proofs.«156180_j91319594647822_2_alg».proof.Defs
import proofs.«156180_j91319594647822_2_alg».proof.Proof.Gen.KernelIdeal.Frame
import Idealize.ShloMosaic.Lib.ValueIdx
import Idealize.ShloMosaic.Lib.Pipeline.Value
import Idealize.ShloMosaic.Lib.StableHlo.Run

/-!
# The launch side of the idealized kernel program

The program reshapes its argument `x : [16,128,128,128]` to `[16,128,16384]`, runs its body once per batch entry
`b` on block `b` of that array — the `[1,128,16384]` slab whose entry `(0, ch, n)` is `x[b, ch, n / 128, n % 128]` —
writing row `b` of a `[16,1,128]` array, and reshapes that array to `[16,128]` and then to `[16,128,1,1]`.
Here the result array is read off the run as ONE function of the argument array: entry `(b, c, 0, 0)` is entry
`(0, 0, c)` of the body's result on block `b`.
-/

noncomputable section

namespace Cert.KernelIdeal.Arr

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument's blocks and the result array -/

/-- Block `b` of the argument array seen as the region sees it: entry `(0, ch, n)` is `x[b, ch, n / 128, n % 128]`. -/
def blockOf (x : S16x128x128x128.Idx → EReal) (b : Fin 16) : Vec Ideal S1x128x16384 .f32 :=
  fun y => x (ix4 b (y 1 : Fin 128) (⟨(y 2 : Fin 16384).val / 128, by have h : (y 2 : Fin 16384).val < 16384 := (y 2).isLt; omega⟩ : Fin 128)
    (⟨(y 2 : Fin 16384).val % 128, Nat.mod_lt _ (by decide)⟩ : Fin 128))

theorem zero3 : (![0, 0, 0] : Fin 3 → Nat) = fun _ => 0 := funext fun a => by fin_cases a <;> rfl

/-- The body's result block as the payload term: its one store covers the whole block, and a load of the whole input
    block is the block. -/
theorem out_eq_pay (x0 : Vec Ideal S1x128x16384 .f32) :
    out0_1 (F := Ideal) x0 = k0_pay1 k0_pay2 (k0_pay18 k0_pay2 (k0_pay5 x0) (k0_pay6 x0) (k0_pay7 x0) k0_pay8)
      (k0_pay19 k0_pay2 (k0_pay5 x0) (k0_pay6 x0) (k0_pay7 x0) k0_pay8) k0_pay20 := by
  unfold out0_1
  rw [View.canon_unit_zero zero3]
  simp only [View.ld_unit_zero (S := S1x128x16384) zero3]

/-- The result array as ONE function of the argument array: entry `(b, c, 0, 0)` is entry `(0, 0, c)` of the body's
    result on block `b`. -/
def outArr (x : S16x128x128x128.Idx → EReal) : S16x128x1x1.Idx → EReal :=
  fun i => out0_1 (F := Ideal) (blockOf x (i 0 : Fin 16)) (ix3 (0 : Fin 1) (0 : Fin 1) (i 1 : Fin 128))

/-- A `[16,1,128]` array from a family of sixteen `[1,1,128]` blocks: entry `(b, 0, c)` is entry `(0, 0, c)` of block `b`. -/
def rowsOf (f : Fin 16 → Vec Ideal S1x1x128 .f32) : S16x1x128.Idx → EReal :=
  fun i => f (i 0 : Fin 16) (ix3 (0 : Fin 1) (0 : Fin 1) (i 2 : Fin 128))

/-- The array the region writes, as one function of the argument array: row `b` is the body's result on block `b`. -/
def rowsArr (x : S16x128x128x128.Idx → EReal) : S16x1x128.Idx → EReal :=
  rowsOf fun b => out0_1 (F := Ideal) (blockOf x b)

/-! ## The array the region reads -/

/-- The array the region reads is the argument array reshaped. -/
theorem V_main_v0 (c : Dev nD) :
    (V m c main_v0 : S16x128x16384.Idx → EReal)
      = shapeCast S16x128x16384 (m ((c.tc : Thread nD τ).loc main_arg0) : S16x128x128x128.Idx → EReal)
          Facts₀.shapeCasts_S16x128x128x128_S16x128x16384 := by
  show StableHlo.after hostOps0 (fun b => m (c, b)) (Proc.devRef .tc main_v0) = _
  after_results
  rfl

/-- Entry `(b, ch, n)` of the reshaped array is `x[b, ch, n / 128, n % 128]`. -/
theorem reshape_apply (x : S16x128x128x128.Idx → EReal) (h : S16x128x128x128.ShapeCasts S16x128x16384)
    (j : S16x128x16384.Idx) (k : S16x128x128x128.Idx)
    (h0 : (k 0).val = (j 0).val) (h1 : (k 1).val = (j 1).val)
    (h2 : (k 2).val = (j 2).val / 128) (h3 : (k 3).val = (j 2).val % 128) :
    shapeCast S16x128x16384 x h j = x k := by
  refine shapeCast_apply x h j k ?_
  rw [Shape.rowMajor_val_four, Shape.rowMajor_val_three]
  show (((k 0).val * 128 + (k 1).val) * 128 + (k 2).val) * 128 + (k 3).val = ((j 0).val * 128 + (j 1).val) * 16384 + (j 2).val
  rw [h0, h1, h2, h3]
  omega

/-! ## The printed index maps -/

/-- Both windows move along the batch axis with the grid point and stay at block 0 on the other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-! ## The input block at a point -/

/-- Entry `y` of window 0's block at point `t` is the argument array at batch entry `t`, channel `y 1`, and the
    row and column that position `y 2` of the flattened image has. -/
theorem iblk_apply (c : Dev nD) (t : Fin cfg0.N) (y : S1x128x16384.Idx) (k : S16x128x128x128.Idx)
    (hk0 : (k 0).val = t.val) (hk1 : (k 1).val = (y 1).val)
    (hk2 : (k 2).val = (y 2).val / 128) (hk3 : (k 3).val = (y 2).val % 128) :
    (iblk m c 0 t : Vec Ideal S1x128x16384 .f32) y
      = (m ((c.tc : Thread nD τ).loc main_arg0) : S16x128x128x128.Idx → EReal) k := by
  obtain ⟨e0, e1, e2, -, -, -⟩ := idx_facts t
  have hy0 : (y 0).val < 1 := (y 0).isLt
  have hy1 : (y 1).val < 128 := (y 1).isLt
  have hy2 : (y 2).val < 16384 := (y 2).isLt
  unfold iblk
  rw [View.read_apply]
  show (V m c main_v0 : S16x128x16384.Idx → EReal) (((cfg0.win 0).blk t).view.emb y) = _
  rw [V_main_v0]
  refine reshape_apply _ _ _ k ?_ ?_ ?_ ?_
  · show (k 0).val = win0_0.index t (0 : Fin 3) * 1 + 1 * (y 0).val
    rw [e0, hk0]; omega
  · show (k 1).val = win0_0.index t (1 : Fin 3) * 128 + 1 * (y 1).val
    rw [e1, hk1]; omega
  · show (k 2).val = (win0_0.index t (2 : Fin 3) * 16384 + 1 * (y 2).val) / 128
    rw [e2, hk2]; congr 1; omega
  · show (k 3).val = (win0_0.index t (2 : Fin 3) * 16384 + 1 * (y 2).val) % 128
    rw [e2, hk3]; congr 1; omega

/-- Window 0's block at point `t` is block `t` of the argument array. -/
theorem iblk_eq (c : Dev nD) (t : Fin cfg0.N) :
    (iblk m c 0 t : Vec Ideal S1x128x16384 .f32)
      = blockOf (m ((c.tc : Thread nD τ).loc main_arg0)) (t.cast N_0) :=
  funext fun y => iblk_apply m c t y _ rfl rfl rfl rfl

/-! ## What a point writes back -/

/-- Row `b` of an array of blocks, read through a `[1,1,128]` block index, is block `b`. -/
theorem rowsOf_apply (f : Fin 16 → Vec Ideal S1x1x128 .f32) (b : Fin 16) (j : S1x1x128.Idx) (i : S16x1x128.Idx)
    (h0 : (i 0).val = b.val) (h2 : (i 2).val = (j 2).val) : rowsOf f i = f b j := by
  have hb : (i 0 : Fin 16) = b := Fin.ext h0
  have hj : ix3 (0 : Fin 1) (0 : Fin 1) (i 2 : Fin 128) = j := by
    funext a
    match a with
    | ⟨0, _⟩ => exact Fin.ext (by have h : (j 0).val < 1 := (j 0).isLt; show 0 = (j 0).val; omega)
    | ⟨1, _⟩ => exact Fin.ext (by have h : (j 1).val < 1 := (j 1).isLt; show 0 = (j 1).val; omega)
    | ⟨2, _⟩ => exact Fin.ext h2
  exact congrArg₂ f hb hj

/-- Block `t` of an array of blocks, read through the output window's block at point `t`, is block `t` of the family. -/
theorem cut_eq_read (f : Fin 16 → Vec Ideal S1x1x128 .f32) (t : Fin cfg0.N) :
    (cfg0.win 1).cut (grid0.coords t) (f (t.cast N_0)) = ((cfg0.win 1).blk t).view.read (Elt Ideal) (rowsOf f) := by
  obtain ⟨-, -, -, e0, e1, e2⟩ := idx_facts t
  funext j
  show f (t.cast N_0) j = rowsOf f (((cfg0.win 1).blk t).view.emb j)
  refine (rowsOf_apply f (t.cast N_0) j (((cfg0.win 1).blk t).view.emb j) ?_ ?_).symm
  · show win0_1.index t (0 : Fin 3) * 1 + 1 * (j 0).val = t.val
    have h : (j 0).val < 1 := (j 0).isLt
    rw [e0]; omega
  · show win0_1.index t (2 : Fin 3) * 128 + 1 * (j 2).val = (j 2).val
    rw [e2]; omega

/-- WHAT POINT `t` WRITES BACK is block `t` of `rowsArr` of the argument array. -/
theorem flushed_eq (c : Dev nD) (t : Fin cfg0.N) :
    (dats m 0 c).flushed 1 t
      = ((cfg0.win 1).blk t).view.read (Elt Ideal) (rowsArr (m ((c.tc : Thread nD τ).loc main_arg0))) := by
  show (cfg0.win 1).cut (grid0.coords t) ((dats m 0 c).after 1 t) = _
  rw [after0_1, iblk_eq]
  exact cut_eq_read (fun b => out0_1 (F := Ideal) (blockOf (m ((c.tc : Thread nD τ).loc main_arg0)) b)) t

/-! ## The region's output array after the run -/

/-- An index of the output array is in point `t`'s block iff each coordinate is in the block's range on its axis. -/
theorem mem_blk (t : Fin cfg0.N) (i : S16x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v1).slice (win0_1.rect t)).set ↔ _
  rw [View.set_slice_whole, Rect.mem_set_unit]
  exact Iff.rfl

/-- Row `b` of the output array is covered by point `b`'s block. -/
theorem cover (i : S16x1x128.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 128 := (i 2).isLt
  obtain ⟨t, ht⟩ : ∃ t : Fin cfg0.N, t.val = (i 0).val :=
    ⟨⟨(i 0).val, by rw [show cfg0.N = 16 from N_0]; exact h0⟩, rfl⟩
  refine ⟨t, flush0_1 t, ?_⟩
  rw [mem_blk]
  obtain ⟨-, -, -, e0, e1, e2⟩ := idx_facts t
  intro a
  match a with
  | ⟨0, _⟩ =>
    show win0_1.index t (0 : Fin 3) * 1 ≤ (i 0).val ∧ (i 0).val < win0_1.index t (0 : Fin 3) * 1 + 1
    rw [e0]; omega
  | ⟨1, _⟩ =>
    show win0_1.index t (1 : Fin 3) * 1 ≤ (i 1).val ∧ (i 1).val < win0_1.index t (1 : Fin 3) * 1 + 1
    rw [e1]; omega
  | ⟨2, _⟩ =>
    show win0_1.index t (2 : Fin 3) * 128 ≤ (i 2).val ∧ (i 2).val < win0_1.index t (2 : Fin 3) * 128 + 128
    rw [e2]; omega

/-- THE REGION'S OUTPUT ARRAY after the run is `rowsArr` of the argument array. -/
theorem final (c : Dev nD) :
    (dats m 0 c).arrAt 1 cfg0.N = rowsArr (m ((c.tc : Thread nD τ).loc main_arg0)) :=
  (dats m 0 c).arrAt_eq_of_cover 1 (rowsArr (m ((c.tc : Thread nD τ).loc main_arg0)))
    (fun t _ => flushed_eq m c t) cover

/-! ## The reshapes after the region -/

/-- Entry `(b, c, 0, 0)` of the region's output array reshaped to `[16,128]` and then to `[16,128,1,1]` is its
    entry `(b, 0, c)`. -/
theorem reshapes_apply (g : S16x1x128.Idx → EReal) (h1 : S16x1x128.ShapeCasts S16x128)
    (h2 : S16x128.ShapeCasts S16x128x1x1) (i : S16x128x1x1.Idx) (k : S16x1x128.Idx)
    (hk0 : (k 0).val = (i 0).val) (hk2 : (k 2).val = (i 1).val) :
    shapeCast S16x128x1x1 (shapeCast S16x128 g h1) h2 i = g k := by
  have hi2 : (i 2).val < 1 := (i 2).isLt
  have hi3 : (i 3).val < 1 := (i 3).isLt
  have hk1 : (k 1).val < 1 := (k 1).isLt
  refine (shapeCast_apply (shapeCast S16x128 g h1) h2 i (ix2 (i 0 : Fin 16) (i 1 : Fin 128)) ?_).trans
    (shapeCast_apply g h1 (ix2 (i 0 : Fin 16) (i 1 : Fin 128)) k ?_)
  · rw [Shape.rowMajor_val_two, Shape.rowMajor_val_four]
    show (i 0).val * 128 + (i 1).val = (((i 0).val * 128 + (i 1).val) * 1 + (i 2).val) * 1 + (i 3).val
    omega
  · rw [Shape.rowMajor_val_three, Shape.rowMajor_val_two]
    show ((k 0).val * 1 + (k 1).val) * 128 + (k 2).val = (i 0).val * 128 + (i 1).val
    rw [hk0, hk2]; omega

/-- The result array after the host operations that follow the region: the region's output array reshaped twice. -/
theorem tail_eq (c : Dev nD) :
    (Pipeline.afterTail₀ cfgs (dats m) 0 (V0 m) [hostOps1] c main_v3 : S16x128x1x1.Idx → EReal)
      = shapeCast S16x128x1x1
          (shapeCast S16x128 (rowsArr (m ((c.tc : Thread nD τ).loc main_arg0))) Facts₀.shapeCasts_S16x1x128_S16x128)
          Facts₀.shapeCasts_S16x128_S16x128x1x1 := by
  unfold Pipeline.afterTail₀
  show StableHlo.after hostOps1 _ (Proc.devRef .tc main_v3) = _
  after_results
  rw [(Pipeline.withArrays_arr spec0 launch0.win.arr_inj c _ _ 1).trans (final m c)]
  rfl

/-- The result array after the host operations that follow the region is `outArr` of the argument array. -/
theorem result_eq (c : Dev nD) :
    (Pipeline.afterTail₀ cfgs (dats m) 0 (V0 m) [hostOps1] c main_v3 : S16x128x1x1.Idx → EReal)
      = outArr (m ((c.tc : Thread nD τ).loc main_arg0)) := by
  rw [tail_eq]
  funext i
  rw [reshapes_apply _ _ _ i (ix3 (i 0 : Fin 16) (0 : Fin 1) (i 1 : Fin 128)) rfl rfl]
  rfl

/-! ## The run -/

/-- Every run of the program ends with the result array at `outArr` of the argument array, the argument unchanged. -/
theorem run : θ_run (defs (F := Ideal)) (onTc (τ := τ) (main (F := Ideal))) ⟨m, fun _ => 0, ρ⟩ (fun r => ∀ c : Dev nD,
      r.2.mem ((c.tc : Thread nD τ).loc main_v3) = outArr (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c)⟩)
    (run_main m ρ)

end Cert.KernelIdeal.Arr

end
-- ==== Proof.Finite.lean ====
import proofs.«156180_j91319594647822_2_alg».proof.Defs
import proofs.«156180_j91319594647822_2_alg».proof.Proof.Gen.Pre_finite_inputs
import Idealize.ShloMosaic.Lib.ReduceAll
import Idealize.ShloMosaic.Lib.ValueIdx
import Idealize.ShloMosaic.Lib.IdealHost

/-!
# Finiteness of the argument array

The precondition says that `|x| < +∞` holds at every entry of the argument array (a conjunction over all
entries, printed as one reduction by `and`). Read back entry by entry, it says that every entry is a real
number: an extended real whose absolute value `max x (-x)` lies strictly below `⊤` is neither `⊤` nor `⊥`.
-/

noncomputable section

namespace Cert.KernelIdeal.Fin

open Idealize.ShloMosaic Idealize.ShloMosaic.ValueIdx Idealize.SL.Sem

/-- The rank-0 shape has exactly one index. -/
instance subsingleton_scalar_idx : Subsingleton Cert.Pre_finite_inputs.S_.Idx :=
  ⟨fun a b => funext fun d => d.elim0⟩

/-- An extended real whose absolute value `max x (-x)` is strictly below `⊤` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The comparison `|x| < +∞` coming out true says that `x` is a real number. -/
theorem real_of_cmp (x : EReal) (h : Ideal.cmp CmpFPredicate.olt (max x (-x)) (⊤ : EReal) = 1#1) :
    ∃ r : ℝ, x = (r : EReal) := by
  refine real_of_abs_lt_top x ?_
  by_contra hn
  have e : Ideal.cmp CmpFPredicate.olt (max x (-x)) (⊤ : EReal) = 0#1 := by
    show BitVec.ofBool (decide (max x (-x) < (⊤ : EReal))) = 0#1
    rw [decide_eq_false hn]; rfl
  rw [e] at h
  exact absurd h (by decide)

/-- The pattern `0x7F800000` denotes `+∞`. -/
theorem ofBits_inf : Ideal.ofBits .f32 0x7F800000#32 = (⊤ : EReal) := by
  simp [Ideal.ofBits, Ideal.ieee]

/-- Under the precondition every entry of the argument array is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S16x128x128x128.Idx) :
    ∃ r : ℝ, m ((c.tc : Thread Cert.KernelIdeal.nD Cert.KernelIdeal.τ).loc Cert.KernelIdeal.main_arg0) i = (r : EReal) := by
  have h0 := congrFun (h c) ix0
  dsimp only [Cert.Pre_finite_inputs.fn] at h0
  have h1 := Host.reduce_andi_all _ _ _ _ _ h0 i
  rw [cmpf_apply, broadcastInDim_scalar_apply, constant_apply, ofBits_inf] at h1
  exact real_of_cmp _ h1

end Cert.KernelIdeal.Fin

end
-- ==== Proof.KerOps.lean ====
/-
  The idealized kernel's vector operations read at an index, over the extended reals: the two matrix products as plain
  sums over the contracted coordinate, the lane and sublane sums as sums over one coordinate, the keep-dimension shape
  casts, the transpose of a column, the broadcasts of a column, a row and a single entry, and the integer mask
  "row index = column index" converted to a float as the identity matrix.
-/
import proofs.«156180_j91319594647822_2_alg».proof.Proof.Gen.KernelIdeal.Skeleton
import proofs.«156180_j91319594647822_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Ops

open Idealize.ShloMosaic Idealize.ShloMosaic.ValueIdx Cert.KernelIdeal Cert.KernelIdeal.Gen Cert.Spec

/-- A 128 × 128 vector by coordinates. -/
def cur2 (v : FVec Ideal S128x128 .f32) : Mat := fun c d => v (ix2 c d)

/-! ## The matrix products -/

/-- The 128 × 128 product into a zero accumulator: entry (c, d) is the sum over k of A(c, k) · B(k, d). -/
theorem mm128_apply (prec : Option ContractPrecision) (A B : FVec Ideal S128x128 .f32) (c d : Fin 128) :
    matmul dot_S128x128_S128x128_S128x128_1_0_0_1_n_n prec A B (constant S128x128 .f32 0x00000000#32) (ix2 c d)
      = ∑ k : Fin 128, A (ix2 c k) * B (ix2 k d) := by
  refine (Ideal.matmul_constant_zero_apply dot_S128x128_S128x128_S128x128_1_0_0_1_n_n prec A B (ix2 c d)).trans ?_
  rw [← Equiv.sum_comp (contrEquiv1 dot_S128x128_S128x128_S128x128_1_0_0_1_n_n 128 rfl rfl).symm]
  refine Finset.sum_congr rfl fun k _ => ?_
  congr 2
  · funext a
    refine Fin.ext ?_
    match a with
    | ⟨0, _⟩ => rfl
    | ⟨1, _⟩ =>
      exact (DotDims.lhsIdx_val_of_single dot_S128x128_S128x128_S128x128_1_0_0_1_n_n (cl := 1) rfl (ix2 c d) _).trans
        (contrEquiv1_symm_val dot_S128x128_S128x128_S128x128_1_0_0_1_n_n 128 rfl rfl k)
  · funext a
    refine Fin.ext ?_
    match a with
    | ⟨0, _⟩ =>
      exact (DotDims.rhsIdx_val_of_single dot_S128x128_S128x128_S128x128_1_0_0_1_n_n (cr := 0) rfl (ix2 c d) _).trans
        (contrEquiv1_symm_val dot_S128x128_S128x128_S128x128_1_0_0_1_n_n 128 rfl rfl k)
    | ⟨1, _⟩ => rfl

/-- The Gram product of a 128 × 16384 vector with itself (both operands contracted on their second axis): entry (c, d)
    is the sum over n of A(c, n) · B(d, n). The operands' format is whatever the program narrowed them to; at the ideal
    instance that changes nothing. -/
theorem gram_apply {φ : FTy} (prec : Option ContractPrecision) (A B : FVec Ideal S128x16384 φ) (c d : Fin 128) :
    matmul dot_S128x16384_S128x16384_S128x128_1_1_0_0_n_n prec A B (constant S128x128 .f32 0x00000000#32) (ix2 c d)
      = ∑ n : Fin 16384, A (ix2 c n) * B (ix2 d n) := by
  refine (Ideal.matmul_constant_zero_apply dot_S128x16384_S128x16384_S128x128_1_1_0_0_n_n prec A B (ix2 c d)).trans ?_
  rw [← Equiv.sum_comp (contrEquiv1 dot_S128x16384_S128x16384_S128x128_1_1_0_0_n_n 16384 rfl rfl).symm]
  refine Finset.sum_congr rfl fun k _ => ?_
  congr 2
  · funext a
    refine Fin.ext ?_
    match a with
    | ⟨0, _⟩ => rfl
    | ⟨1, _⟩ =>
      exact (DotDims.lhsIdx_val_of_single dot_S128x16384_S128x16384_S128x128_1_1_0_0_n_n (cl := 1) rfl (ix2 c d) _).trans
        (contrEquiv1_symm_val dot_S128x16384_S128x16384_S128x128_1_1_0_0_n_n 16384 rfl rfl k)
  · funext a
    refine Fin.ext ?_
    match a with
    | ⟨0, _⟩ => rfl
    | ⟨1, _⟩ =>
      exact (DotDims.rhsIdx_val_of_single dot_S128x16384_S128x16384_S128x128_1_1_0_0_n_n (cr := 1) rfl (ix2 c d) _).trans
        (contrEquiv1_symm_val dot_S128x16384_S128x16384_S128x128_1_1_0_0_n_n 16384 rfl rfl k)

/-! ## Sums along one axis -/

/-- A sum over the second axis of a 128 × 128 vector: entry c is the sum over d of A(c, d). -/
theorem rowSum_apply (A : FVec Ideal S128x128 .f32) (h : S128x128.Reduces [1] S128) (hφ : FKind.Formats .f32)
    (hacc : (0x00000000#32 : BitVec 32) = 0x00000000#32) (c : Fin 128) :
    multiReduction .add [1] S128 A 0x00000000#32 h hφ hacc (ix1 c) = ∑ d : Fin 128, A (ix2 c d) := by
  refine (Ideal.multiReduction_add_single A 0x00000000#32 h hφ hacc (ix1 c)).trans ?_
  refine Finset.sum_congr rfl fun k _ => congrArg A ?_
  funext a; refine Fin.ext ?_
  match a with
  | ⟨0, _⟩ => rfl
  | ⟨1, _⟩ => rfl

/-- The same over the second axis of a 128 × 16384 vector. -/
theorem rowSumN_apply (A : FVec Ideal S128x16384 .f32) (h : S128x16384.Reduces [1] S128) (hφ : FKind.Formats .f32)
    (hacc : (0x00000000#32 : BitVec 32) = 0x00000000#32) (c : Fin 128) :
    multiReduction .add [1] S128 A 0x00000000#32 h hφ hacc (ix1 c) = ∑ n : Fin 16384, A (ix2 c n) := by
  refine (Ideal.multiReduction_add_single A 0x00000000#32 h hφ hacc (ix1 c)).trans ?_
  refine Finset.sum_congr rfl fun k _ => congrArg A ?_
  funext a; refine Fin.ext ?_
  match a with
  | ⟨0, _⟩ => rfl
  | ⟨1, _⟩ => rfl

/-- A sum over the first axis of a 128 × 128 vector: entry d is the sum over c of A(c, d). -/
theorem colSum_apply (A : FVec Ideal S128x128 .f32) (h : S128x128.Reduces [0] S128) (hφ : FKind.Formats .f32)
    (hacc : (0x00000000#32 : BitVec 32) = 0x00000000#32) (d : Fin 128) :
    multiReduction .add [0] S128 A 0x00000000#32 h hφ hacc (ix1 d) = ∑ c : Fin 128, A (ix2 c d) := by
  refine (Ideal.multiReduction_add_single A 0x00000000#32 h hφ hacc (ix1 d)).trans ?_
  refine Finset.sum_congr rfl fun k _ => congrArg A ?_
  funext a; refine Fin.ext ?_
  match a with
  | ⟨0, _⟩ => rfl
  | ⟨1, _⟩ => rfl

/-- A sum over the first axis of a 128 × 1 column: its one entry is the sum over c of the column. -/
theorem colSum1_apply (A : FVec Ideal S128x1 .f32) (h : S128x1.Reduces [0] S1) (hφ : FKind.Formats .f32)
    (hacc : (0x00000000#32 : BitVec 32) = 0x00000000#32) (z : Fin 1) :
    multiReduction .add [0] S1 A 0x00000000#32 h hφ hacc (ix1 z) = ∑ c : Fin 128, A (ix2 c z) := by
  refine (Ideal.multiReduction_add_single A 0x00000000#32 h hφ hacc (ix1 z)).trans ?_
  refine Finset.sum_congr rfl fun k _ => congrArg A ?_
  funext a; refine Fin.ext ?_
  match a with
  | ⟨0, _⟩ => rfl
  | ⟨1, _⟩ => rfl

/-! ## Shape casts that keep a unit axis, a column's transpose, and the broadcasts -/

section Layout
variable {α : Type}

/-- A vector of 128 seen as a 128 × 1 column. -/
theorem cast_col_apply (v : S128.Idx → α) (h : S128.ShapeCasts S128x1) (c : Fin 128) (z : Fin 1) :
    shapeCast S128x1 v h (ix2 c z) = v (ix1 c) := by
  refine shapeCast_apply v h (ix2 c z) (ix1 c) ?_
  rw [Shape.rowMajor_val_one, Shape.rowMajor_val_two]
  show c.val = c.val * 1 + z.val
  omega

/-- A vector of 128 seen as a 1 × 128 row. -/
theorem cast_row_apply (v : S128.Idx → α) (h : S128.ShapeCasts S1x128) (z : Fin 1) (d : Fin 128) :
    shapeCast S1x128 v h (ix2 z d) = v (ix1 d) := by
  refine shapeCast_apply v h (ix2 z d) (ix1 d) ?_
  rw [Shape.rowMajor_val_one, Shape.rowMajor_val_two]
  show d.val = z.val * 128 + d.val
  omega

/-- A vector of one entry seen as 1 × 1. -/
theorem cast_one_apply (v : S1.Idx → α) (h : S1.ShapeCasts S1x1) (z z' : Fin 1) :
    shapeCast S1x1 v h (ix2 z z') = v (ix1 0) := by
  refine shapeCast_apply v h (ix2 z z') (ix1 0) ?_
  rw [Shape.rowMajor_val_one, Shape.rowMajor_val_two]
  show (0 : Fin 1).val = z.val * 1 + z'.val
  simp

/-- A 1 × 128 row seen as a 1 × 1 × 128 block. -/
theorem cast_block_apply (v : S1x128.Idx → α) (h : S1x128.ShapeCasts S1x1x128) (z z' : Fin 1) (d : Fin 128) :
    shapeCast S1x1x128 v h (ix3 z z' d) = v (ix2 0 d) := by
  refine shapeCast_apply v h (ix3 z z' d) (ix2 0 d) ?_
  rw [Shape.rowMajor_val_two, Shape.rowMajor_val_three]
  show (0 : Fin 1).val * 128 + d.val = (z.val * 1 + z'.val) * 128 + d.val
  simp

/-- A 1 × 128 × 16384 block seen as a 128 × 16384 matrix. -/
theorem cast_mat_apply (v : S1x128x16384.Idx → α) (h : S1x128x16384.ShapeCasts S128x16384) (c : Fin 128) (n : Fin 16384) :
    shapeCast S128x16384 v h (ix2 c n) = v (ix3 0 c n) := by
  refine shapeCast_apply v h (ix2 c n) (ix3 0 c n) ?_
  rw [Shape.rowMajor_val_two, Shape.rowMajor_val_three]
  show ((0 : Fin 1).val * 128 + c.val) * 16384 + n.val = c.val * 16384 + n.val
  simp

/-- The transpose of a 128 × 1 column is the row with the same entries. -/
theorem transpose_col_apply (v : S128x1.Idx → α) (h : S128x1.Transposes [1, 0] S1x128) (z : Fin 1) (d : Fin 128) :
    transpose S1x128 [1, 0] v h (ix2 z d) = v (ix2 d z) := by
  refine transpose_apply [1, 0] v h (ix2 z d) (ix2 d z) ?_
  intro b
  match b with
  | ⟨0, _⟩ => rfl
  | ⟨1, _⟩ => rfl

/-- A 128 × 1 column broadcast along the second axis: entry (c, d) is the column's entry c. -/
theorem bcast_col_apply (v : S128x1.Idx → α) (h : S128x1.Broadcasts S128x128) (c d : Fin 128) :
    broadcastTo S128x128 v h (ix2 c d) = v (ix2 c 0) := by
  refine broadcastTo_apply v h (ix2 c d) (ix2 c 0) ?_
  intro a
  match a with
  | ⟨0, _⟩ => rfl
  | ⟨1, _⟩ => rfl

/-- A 1 × 128 row broadcast along the first axis: entry (c, d) is the row's entry d. -/
theorem bcast_row_apply (v : S1x128.Idx → α) (h : S1x128.Broadcasts S128x128) (c d : Fin 128) :
    broadcastTo S128x128 v h (ix2 c d) = v (ix2 0 d) := by
  refine broadcastTo_apply v h (ix2 c d) (ix2 0 d) ?_
  intro a
  match a with
  | ⟨0, _⟩ => rfl
  | ⟨1, _⟩ => rfl

/-- A 1 × 1 vector broadcast to 128 × 128: every entry is its one entry. -/
theorem bcast_one_apply (v : S1x1.Idx → α) (h : S1x1.Broadcasts S128x128) (c d : Fin 128) :
    broadcastTo S128x128 v h (ix2 c d) = v (ix2 0 0) := by
  refine broadcastTo_apply v h (ix2 c d) (ix2 0 0) ?_
  intro a
  match a with
  | ⟨0, _⟩ => rfl
  | ⟨1, _⟩ => rfl

end Layout

/-! ## The identity matrix from the two index vectors -/

/-- Two coordinates below 128 are equal exactly when their 32-bit words are. -/
theorem ofNat32_eq_iff (c d : Fin 128) : (BitVec.ofNat 32 c.val == BitVec.ofNat 32 d.val) = decide (c = d) := by
  by_cases h : c = d
  · subst h; simp
  · have hv : c.val ≠ d.val := fun e => h (Fin.ext e)
    have : BitVec.ofNat 32 c.val ≠ BitVec.ofNat 32 d.val := by
      intro e
      have := congrArg BitVec.toNat e
      simp only [BitVec.toNat_ofNat] at this
      have hc := c.isLt; have hd := d.isLt
      omega
    simp [h, this]

/-- The mask "row index = column index", widened and converted to a float, is the identity matrix. -/
theorem eyeK_apply (c d : Fin 128) : k0_pay2 (F := Ideal) (ix2 c d) = eye c d := by
  unfold k0_pay2
  show FloatOps.sitofp (F := Ideal) .f32 ((IntOp.cmpi .eq (iota .tc S128x128 32 [0] iota_S128x128_d0_w32 (ix2 c d))
    (iota .tc S128x128 32 [1] iota_S128x128_d1_w32 (ix2 c d))).setWidth 32) = _
  rw [iota_single_apply, iota_single_apply]
  show (((((BitVec.ofBool (BitVec.ofNat 32 c.val == BitVec.ofNat 32 d.val)).setWidth 32).toInt : ℝ)) : EReal) = _
  rw [ofNat32_eq_iff]
  unfold eye
  by_cases h : c = d
  · simp [h]
  · simp [h]

theorem cur2_eyeK : cur2 (k0_pay2 (F := Ideal)) = eye := funext fun c => funext fun d => eyeK_apply c d

end Cert.KernelIdeal.Ops

end
-- ==== Proof.KerStages.lean ====
/-
  The idealized kernel's body, stage by stage, as the specification's matrices.

  The body's values are a chain of named payloads: the trace-normalized covariance of the block, then for each
  Newton–Schulz step the matrices T, Y' and Z', and last the row of column means. Each payload read at (c, d) is the
  specification's operation on the payloads it is built from; chaining them gives the stored block as `tailOut` of the
  normalized covariance of the block's matrix.
-/
import proofs.«156180_j91319594647822_2_alg».proof.Proof.KerOps
import proofs.«156180_j91319594647822_2_alg».proof.Proof.Cov

noncomputable section

open scoped BigOperators

namespace Cert.KernelIdeal.Stages

open Idealize.ShloMosaic Idealize.ShloMosaic.ValueIdx Cert.KernelIdeal Cert.KernelIdeal.Gen Cert.Spec Cert.KernelIdeal.Ops

/-- The staged block as a channel-by-position matrix. -/
def blkMat (x0 : Vec Ideal S1x128x16384 .f32) : Fin 128 → Fin 16384 → EReal := fun c n => x0 (ix3 0 c n)

/-- The vector square root at an index is the ideal square root of the entry. -/
theorem sqrt_apply {s : Shape} (v : FVec Ideal s .f32) (i : s.Idx) : sqrt v i = Ideal.sqrt (v i) := rfl

/-! ## The sums the body takes, each named once -/

/-- Sum along the second axis of a 128 × 128 vector. -/
def rowSum (A : FVec Ideal S128x128 .f32) : FVec Ideal S128 .f32 :=
  multiReduction .add [1] S128 A 0x00000000#32 reduces_S128x128_S128 (.inl rfl) rfl
theorem rowSum_at (A : FVec Ideal S128x128 .f32) (c : Fin 128) : rowSum A (ix1 c) = ∑ d : Fin 128, A (ix2 c d) :=
  rowSum_apply A _ _ _ c

/-- Sum along the second axis of a 128 × 16384 vector. -/
def rowSumN (A : FVec Ideal S128x16384 .f32) : FVec Ideal S128 .f32 :=
  multiReduction .add [1] S128 A 0x00000000#32 reduces_S128x16384_S128 (.inl rfl) rfl
theorem rowSumN_at (A : FVec Ideal S128x16384 .f32) (c : Fin 128) : rowSumN A (ix1 c) = ∑ n : Fin 16384, A (ix2 c n) :=
  rowSumN_apply A _ _ _ c

/-- Sum along the first axis of a 128 × 128 vector. -/
def colSum (A : FVec Ideal S128x128 .f32) : FVec Ideal S128 .f32 :=
  multiReduction .add [0] S128 A 0x00000000#32 reduces_S128x128_S128_2 (.inl rfl) rfl
theorem colSum_at (A : FVec Ideal S128x128 .f32) (d : Fin 128) : colSum A (ix1 d) = ∑ c : Fin 128, A (ix2 c d) :=
  colSum_apply A _ _ _ d

/-- Sum of a 128 × 1 column. -/
def colSum1 (A : FVec Ideal S128x1 .f32) : FVec Ideal S1 .f32 :=
  multiReduction .add [0] S1 A 0x00000000#32 reduces_S128x1_S1 (.inl rfl) rfl
theorem colSum1_at (A : FVec Ideal S128x1 .f32) (z : Fin 1) : colSum1 A (ix1 z) = ∑ c : Fin 128, A (ix2 c z) :=
  colSum1_apply A _ _ _ z

/-- The trace as the body takes it: mask by the identity E, sum each row, then sum the column of row sums. -/
def trVec (E A : FVec Ideal S128x128 .f32) : FVec Ideal S1x1 .f32 :=
  shapeCast S1x1 (colSum1 (shapeCast S128x1 (rowSum (mulf A E)) shapeCasts_S128_S128x1)) shapeCasts_S1_S1x1

theorem trVec_at (E A : FVec Ideal S128x128 .f32) (hE : cur2 E = eye) (z z' : Fin 1) :
    trVec E A (ix2 z z') = trace (cur2 A) := by
  unfold trVec
  rw [cast_one_apply, colSum1_at, ← sum_mul_eye]
  refine Finset.sum_congr rfl fun c _ => ?_
  rw [cast_col_apply, rowSum_at]
  refine Finset.sum_congr rfl fun d _ => ?_
  show A (ix2 c d) * E (ix2 c d) = _
  rw [show E (ix2 c d) = eye c d from congrFun (congrFun hE c) d]
  rfl

/-! ## The first stage: the covariance divided by its trace -/

/-- The column of channel means: each row sum times 2⁻¹⁴. -/
def meanVec (x0 : Vec Ideal S1x128x16384 .f32) : FVec Ideal S128x1 .f32 :=
  mulf (shapeCast S128x1 (rowSumN (shapeCast S128x16384 x0 shapeCasts_S1x128x16384_S128x16384)) shapeCasts_S128_S128x1)
    (broadcast S128x1 (Scalar.ofBits .f32 0x38800000#32))

theorem meanVec_at (x0 : Vec Ideal S1x128x16384 .f32) (c : Fin 128) (z : Fin 1) :
    meanVec x0 (ix2 c z) = (∑ n : Fin 16384, blkMat x0 c n) * wInv := by
  delta meanVec
  simp only [mulf_apply, broadcast_apply, cast_col_apply, rowSumN_at, cast_mat_apply]
  rfl

/-- The covariance as the body forms it. -/
def sigK (x0 : Vec Ideal S1x128x16384 .f32) : FVec Ideal S128x128 .f32 :=
  subf
    (mulf
      (matmul dot_S128x16384_S128x16384_S128x128_1_1_0_0_n_n none
        (truncf .bf16 (shapeCast S128x16384 x0 shapeCasts_S1x128x16384_S128x16384) bitsLt_bf16_f32)
        (truncf .bf16 (shapeCast S128x16384 x0 shapeCasts_S1x128x16384_S128x16384) bitsLt_bf16_f32)
        (constant S128x128 .f32 0x00000000#32))
      (broadcast S128x128 (Scalar.ofBits .f32 0x38800000#32)))
    (mulf (broadcastTo S128x128 (meanVec x0) broadcasts_S128x1_S128x128)
      (broadcastTo S128x128 (transpose S1x128 [1, 0] (meanVec x0) transposes_S128x1_p1_0_S1x128) broadcasts_S1x128_S128x128))

theorem sigK_at (x0 : Vec Ideal S1x128x16384 .f32) (c d : Fin 128) : sigK x0 (ix2 c d) = covK (blkMat x0) c d := by
  delta sigK
  simp only [subf_apply, mulf_apply, broadcast_apply, gram_apply, bcast_col_apply, bcast_row_apply,
    meanVec_at, truncf_apply, cast_mat_apply]
  rw [transpose_col_apply, meanVec_at]
  rfl

theorem sigK_eq (x0 : Vec Ideal S1x128x16384 .f32) : cur2 (sigK x0) = covK (blkMat x0) :=
  funext fun c => funext fun d => sigK_at x0 c d

/-- The first payload is the covariance over its trace. -/
theorem pay3_def (x0 : Vec Ideal S1x128x16384 .f32) :
    k0_pay3 x0 = divf (sigK x0) (broadcastTo S128x128 (trVec k0_pay2 (sigK x0)) broadcasts_S1x1_S128x128) := rfl

theorem pay3_eq (x0 : Vec Ideal S1x128x16384 .f32) : cur2 (k0_pay3 x0) = Cert.Spec.normalize (covK (blkMat x0)) := by
  funext c d
  rw [pay3_def]
  delta cur2
  simp only [divf_apply, bcast_one_apply, trVec_at _ _ cur2_eyeK, sigK_at, sigK_eq]
  rfl

/-! ## The first Newton–Schulz step, from Z = I -/

theorem pay4_eq (x0 : Vec Ideal S1x128x16384 .f32) : cur2 (k0_pay4 x0) = T1 (cur2 (k0_pay3 x0)) := by
  funext c d
  unfold cur2 k0_pay4
  simp only [subf_apply, mulf_apply, broadcast_apply, mm128_apply, eyeK_apply]
  rfl

theorem pay5_eq (x0 : Vec Ideal S1x128x16384 .f32) : cur2 (k0_pay5 x0) = Y2 (cur2 (k0_pay3 x0)) := by
  funext c d
  unfold Y2
  rw [← pay4_eq]
  rfl

theorem pay6_eq (x0 : Vec Ideal S1x128x16384 .f32) : cur2 (k0_pay6 x0) = Z2 (cur2 (k0_pay3 x0)) := by
  funext c d
  unfold Z2
  rw [← pay4_eq]
  unfold cur2 k0_pay6
  simp only [mulf_apply, broadcast_apply, mm128_apply, eyeK_apply]
  rfl

theorem pay7_eq (x0 : Vec Ideal S1x128x16384 .f32) : cur2 (k0_pay7 x0) = T2 (cur2 (k0_pay3 x0)) := by
  funext c d
  unfold T2
  rw [← pay5_eq, ← pay6_eq]
  unfold cur2 k0_pay7
  simp only [subf_apply, mulf_apply, broadcast_apply, mm128_apply, eyeK_apply]
  rfl

/-! ## The later steps, over any iterates

From the second step on the body's payloads take the current iterates as arguments: the identity E, the iterates Y, Z,
the step's T, and the splat H of one half. -/

section Generic
variable (E Y Z T H : FVec Ideal S128x128 .f32)

/-- The splat of one half reads one half everywhere. -/
theorem pay8_eq : cur2 (k0_pay8 (F := Ideal)) = fun _ _ => half := rfl
theorem pay20_eq : cur2 (k0_pay20 (F := Ideal)) = fun _ _ => half := rfl

/-- (H ∘ Y) ∘ T with H the splat of one half is the next Y. -/
theorem ynext_of (hH : cur2 H = fun _ _ => half) : cur2 (mulf (mulf H Y) T) = ynext (cur2 Y) (cur2 T) := by
  funext c d
  show H (ix2 c d) * Y (ix2 c d) * T (ix2 c d) = half * Y (ix2 c d) * T (ix2 c d)
  rw [show H (ix2 c d) = half from congrFun (congrFun hH c) d]

/-- (½ · T) · A is the next Z. -/
theorem znext_of (A : FVec Ideal S128x128 .f32) :
    cur2 (matmul dot_S128x128_S128x128_S128x128_1_0_0_1_n_n (some .fp32)
      (mulf (broadcast S128x128 (Scalar.ofBits (F := Ideal) .f32 0x3F000000#32)) T) A (constant S128x128 .f32 0x00000000#32))
      = znext (cur2 T) (cur2 A) := by
  funext c d
  delta cur2
  simp only [mm128_apply, mulf_apply, broadcast_apply]
  rfl

/-- 3 · E − A · B with E the identity is the step's T. -/
theorem tmat_of (hE : cur2 E = eye) (A B : FVec Ideal S128x128 .f32) :
    cur2 (subf (mulf (broadcast S128x128 (Scalar.ofBits (F := Ideal) .f32 0x40400000#32)) E)
      (matmul dot_S128x128_S128x128_S128x128_1_0_0_1_n_n (some .fp32) A B (constant S128x128 .f32 0x00000000#32)))
      = tmat (cur2 A) (cur2 B) := by
  funext c d
  delta cur2
  simp only [subf_apply, mulf_apply, broadcast_apply, mm128_apply]
  rw [show E (ix2 c d) = eye c d from congrFun (congrFun hE c) d]
  rfl

theorem pay9_eq (hH : cur2 H = fun _ _ => half) : cur2 (k0_pay9 Y T H) = ynext (cur2 Y) (cur2 T) := ynext_of Y T H hH
theorem pay10_eq : cur2 (k0_pay10 Z T) = znext (cur2 T) (cur2 Z) := znext_of T Z
theorem pay11_eq (hE : cur2 E = eye) :
    cur2 (k0_pay11 E Y Z T H) = tmat (cur2 (k0_pay10 Z T)) (cur2 (k0_pay9 Y T H)) := tmat_of E hE _ _
theorem pay12_eq : cur2 (k0_pay12 E Y Z T H) = ynext (cur2 (k0_pay9 Y T H)) (cur2 (k0_pay11 E Y Z T H)) :=
  ynext_of _ _ _ rfl
theorem pay13_eq : cur2 (k0_pay13 E Y Z T H) = znext (cur2 (k0_pay11 E Y Z T H)) (cur2 (k0_pay10 Z T)) := znext_of _ _
theorem pay14_eq (hE : cur2 E = eye) :
    cur2 (k0_pay14 E Y Z T H) = tmat (cur2 (k0_pay13 E Y Z T H)) (cur2 (k0_pay12 E Y Z T H)) := tmat_of E hE _ _
theorem pay15_eq : cur2 (k0_pay15 E Y Z T H) = ynext (cur2 (k0_pay12 E Y Z T H)) (cur2 (k0_pay14 E Y Z T H)) :=
  ynext_of _ _ _ rfl
theorem pay16_eq : cur2 (k0_pay16 E Y Z T H) = znext (cur2 (k0_pay14 E Y Z T H)) (cur2 (k0_pay13 E Y Z T H)) := znext_of _ _
theorem pay17_eq (hE : cur2 E = eye) :
    cur2 (k0_pay17 E Y Z T H) = tmat (cur2 (k0_pay16 E Y Z T H)) (cur2 (k0_pay15 E Y Z T H)) := tmat_of E hE _ _
theorem pay18_eq : cur2 (k0_pay18 E Y Z T H) = ynext (cur2 (k0_pay15 E Y Z T H)) (cur2 (k0_pay17 E Y Z T H)) :=
  ynext_of _ _ _ rfl
theorem pay19_eq (hE : cur2 E = eye) :
    cur2 (k0_pay19 E Y Z T H)
      = tmat (znext (cur2 (k0_pay17 E Y Z T H)) (cur2 (k0_pay16 E Y Z T H))) (cur2 (k0_pay18 E Y Z T H)) := by
  rw [← znext_of]
  exact tmat_of E hE _ _

/-- The stored row: the last Y, scaled by the root of its trace, averaged down each column. -/
theorem pay1_def (Y6 T6 : FVec Ideal S128x128 .f32) :
    k0_pay1 E Y6 T6 H = shapeCast S1x1x128 (divf (shapeCast S1x128 (colSum (mulf
        (broadcastTo S128x128 (sqrt (trVec E (mulf (mulf H Y6) T6))) broadcasts_S1x1_S128x128) (mulf (mulf H Y6) T6)))
        shapeCasts_S128_S1x128) (broadcast S1x128 (Scalar.ofBits (F := Ideal) .f32 0x43000000#32))) shapeCasts_S1x128_S1x1x128 := rfl

theorem pay1_at (Y6 T6 : FVec Ideal S128x128 .f32) (hE : cur2 E = eye) (hH : cur2 H = fun _ _ => half) (z z' : Fin 1)
    (d : Fin 128) : k0_pay1 E Y6 T6 H (ix3 z z' d) = finish (ynext (cur2 Y6) (cur2 T6)) d := by
  have hy := ynext_of Y6 T6 H hH
  rw [pay1_def]
  simp only [cast_block_apply, divf_apply, cast_row_apply, colSum_at, broadcast_apply, mulf_apply, bcast_one_apply, sqrt_apply,
    trVec_at _ _ hE, hy]
  delta finish colMean
  simp only []
  refine congrArg (fun s => Ideal.div s c128) (Finset.sum_congr rfl fun c _ => ?_)
  rw [← hy]
  rfl

end Generic

/-! ## The whole body -/

/-- The block the body stores is the specification's tail of the block's normalized covariance. -/
theorem out_pay (x0 : Vec Ideal S1x128x16384 .f32) (z z' : Fin 1) (d : Fin 128) :
    k0_pay1 k0_pay2 (k0_pay18 k0_pay2 (k0_pay5 x0) (k0_pay6 x0) (k0_pay7 x0) k0_pay8)
      (k0_pay19 k0_pay2 (k0_pay5 x0) (k0_pay6 x0) (k0_pay7 x0) k0_pay8) k0_pay20 (ix3 z z' d)
      = tailOut (Cert.Spec.normalize (covK (blkMat x0))) d := by
  rw [pay1_at _ _ _ _ cur2_eyeK pay20_eq, pay19_eq _ _ _ _ _ cur2_eyeK, pay18_eq, pay17_eq _ _ _ _ _ cur2_eyeK, pay16_eq, pay15_eq,
    pay14_eq _ _ _ _ _ cur2_eyeK, pay13_eq, pay12_eq, pay11_eq _ _ _ _ _ cur2_eyeK, pay10_eq, pay9_eq _ _ _ pay8_eq,
    pay7_eq, pay6_eq, pay5_eq, pay3_eq]
  rfl

end Cert.KernelIdeal.Stages

end
-- ==== Proof.KerOut.lean ====
/-
  The block the idealized kernel's body leaves in its output buffer, in the specification's terms: the body's one store
  covers the whole block, so the block is the last payload, which is the tail of the block's normalized covariance.
-/
import proofs.«156180_j91319594647822_2_alg».proof.Proof.KerStages
import proofs.«156180_j91319594647822_2_alg».proof.Proof.KernelRun

noncomputable section

namespace Cert.KernelIdeal.Stages

open Idealize.ShloMosaic Idealize.ShloMosaic.ValueIdx Cert.KernelIdeal Cert.KernelIdeal.Gen Cert.Spec

/-- Entry (0, 0, d) of the stored block is column d's mean of √(tr Y₇) · Y₇, from the block's own covariance. -/
theorem out_at (x0 : Vec Ideal S1x128x16384 .f32) (z z' : Fin 1) (d : Fin 128) :
    Gen.out0_1 (F := Ideal) x0 (ix3 z z' d) = tailOut (Cert.Spec.normalize (covK (blkMat x0))) d := by
  rw [Cert.KernelIdeal.Arr.out_eq_pay]
  exact out_pay x0 z z' d

end Cert.KernelIdeal.Stages

end
-- ==== Proof.RefOps.lean ====
import proofs.«156180_j91319594647822_2_alg».proof.Proof.Gen.ReferenceIdeal.Run
import Idealize.ShloMosaic.Lib.ValueIdx
import Idealize.ShloMosaic.Lib.Pipeline.Value
import Idealize.ShloMosaic.PureOps.Ideal.Laws
import Idealize.ShloMosaic.Lib.ValueLayout

/-!
# The reference program's operations read at an index, at the ideal values

Each operation kind of the reference (a batched matrix product, a Gram product over a long axis, the sums
over one or two axes, the broadcasts, the input's transpose-and-reshape, the identity masks and the select
on them) is read once at an index given by explicit coordinates, generically in its operands. At the ideal
instance a float is an extended real, so each right-hand side is a plain sum or value over `EReal`.
-/

noncomputable section

open scoped BigOperators

namespace Cert.ReferenceIdeal.Ops

open Cert.ReferenceIdeal Cert.ReferenceIdeal.Gen Idealize.ShloMosaic Idealize.ShloMosaic.ValueIdx Idealize.SL.Sem

/-! ## The batched matrix product: contraction of the left operand's last axis with the right operand's middle axis -/

theorem bmm_lhs_0 (i : S16x128x128.Idx) (q : dot_S16x128x128_S16x128x128_S16x128x128_2_1_1_2_0_0.contr.Idx) :
    (dot_S16x128x128_S16x128x128_S16x128x128_2_1_1_2_0_0.lhsIdx i q 0).val = (i 0).val := by
  unfold DotDims.lhsIdx
  rw [dif_pos (show (0 : Fin S16x128x128.rank) ∈ dot_S16x128x128_S16x128x128_S16x128x128_2_1_1_2_0_0.lhsBatch by decide)]
  rfl
theorem bmm_lhs_1 (i : S16x128x128.Idx) (q : dot_S16x128x128_S16x128x128_S16x128x128_2_1_1_2_0_0.contr.Idx) :
    (dot_S16x128x128_S16x128x128_S16x128x128_2_1_1_2_0_0.lhsIdx i q 1).val = (i 1).val := by
  unfold DotDims.lhsIdx
  rw [dif_neg (show ¬(1 : Fin S16x128x128.rank) ∈ dot_S16x128x128_S16x128x128_S16x128x128_2_1_1_2_0_0.lhsBatch by decide),
    dif_pos (show (1 : Fin S16x128x128.rank) ∈ dot_S16x128x128_S16x128x128_S16x128x128_2_1_1_2_0_0.lhsNonContracting by decide)]
  rfl
theorem bmm_lhs_2 (i : S16x128x128.Idx) (q : dot_S16x128x128_S16x128x128_S16x128x128_2_1_1_2_0_0.contr.Idx) :
    (dot_S16x128x128_S16x128x128_S16x128x128_2_1_1_2_0_0.lhsIdx i q 2).val = (q ⟨0, by decide⟩).val :=
  dot_S16x128x128_S16x128x128_S16x128x128_2_1_1_2_0_0.lhsIdx_val_of_single rfl i q
theorem bmm_rhs_0 (i : S16x128x128.Idx) (q : dot_S16x128x128_S16x128x128_S16x128x128_2_1_1_2_0_0.contr.Idx) :
    (dot_S16x128x128_S16x128x128_S16x128x128_2_1_1_2_0_0.rhsIdx i q 0).val = (i 0).val := by
  unfold DotDims.rhsIdx
  rw [dif_pos (show (0 : Fin S16x128x128.rank) ∈ dot_S16x128x128_S16x128x128_S16x128x128_2_1_1_2_0_0.rhsBatch by decide)]
  rfl
theorem bmm_rhs_1 (i : S16x128x128.Idx) (q : dot_S16x128x128_S16x128x128_S16x128x128_2_1_1_2_0_0.contr.Idx) :
    (dot_S16x128x128_S16x128x128_S16x128x128_2_1_1_2_0_0.rhsIdx i q 1).val = (q ⟨0, by decide⟩).val :=
  dot_S16x128x128_S16x128x128_S16x128x128_2_1_1_2_0_0.rhsIdx_val_of_single rfl i q
theorem bmm_rhs_2 (i : S16x128x128.Idx) (q : dot_S16x128x128_S16x128x128_S16x128x128_2_1_1_2_0_0.contr.Idx) :
    (dot_S16x128x128_S16x128x128_S16x128x128_2_1_1_2_0_0.rhsIdx i q 2).val = (i 2).val := by
  unfold DotDims.rhsIdx
  rw [dif_neg (show ¬(2 : Fin S16x128x128.rank) ∈ dot_S16x128x128_S16x128x128_S16x128x128_2_1_1_2_0_0.rhsBatch by decide),
    dif_pos (show (2 : Fin S16x128x128.rank) ∈ dot_S16x128x128_S16x128x128_S16x128x128_2_1_1_2_0_0.rhsNonContracting by decide)]
  rfl

/-- The batched product at `(b, c, d)`: the sum over `k` of `L (b, c, k) * R (b, k, d)`. -/
theorem bmm_apply (L R : FVec Ideal S16x128x128 .f32) (b : Fin 16) (c d : Fin 128) :
    Host.dotGeneral (F := Ideal) dot_S16x128x128_S16x128x128_S16x128x128_2_1_1_2_0_0 none L R (ix3 b c d)
      = ∑ k : Fin 128, L (ix3 b c k) * R (ix3 b k d) := by
  simp only [Host.dotGeneral]
  rw [Ideal.dotGeneral_apply,
    ← Equiv.sum_comp (contrEquiv1 dot_S16x128x128_S16x128x128_S16x128x128_2_1_1_2_0_0 128 rfl rfl).symm]
  refine Finset.sum_congr rfl fun k _ => ?_
  have hk := contrEquiv1_symm_val dot_S16x128x128_S16x128x128_S16x128x128_2_1_1_2_0_0 128 rfl rfl k
  have el : dot_S16x128x128_S16x128x128_S16x128x128_2_1_1_2_0_0.lhsIdx (ix3 b c d)
      ((contrEquiv1 dot_S16x128x128_S16x128x128_S16x128x128_2_1_1_2_0_0 128 rfl rfl).symm k) = ix3 b c k :=
    funext fun a => Fin.ext (by
      match a with
      | ⟨0, _⟩ => exact bmm_lhs_0 _ _
      | ⟨1, _⟩ => exact bmm_lhs_1 _ _
      | ⟨2, _⟩ => exact (bmm_lhs_2 _ _).trans hk)
  have er : dot_S16x128x128_S16x128x128_S16x128x128_2_1_1_2_0_0.rhsIdx (ix3 b c d)
      ((contrEquiv1 dot_S16x128x128_S16x128x128_S16x128x128_2_1_1_2_0_0 128 rfl rfl).symm k) = ix3 b k d :=
    funext fun a => Fin.ext (by
      match a with
      | ⟨0, _⟩ => exact bmm_rhs_0 _ _
      | ⟨1, _⟩ => exact (bmm_rhs_1 _ _).trans hk
      | ⟨2, _⟩ => exact bmm_rhs_2 _ _)
  rw [el, er]

/-! ## The Gram product: contraction of the long axis of both operands -/

theorem gram_lhs_0 (i : S16x128x128.Idx) (q : dot_S16x16384x128_S16x16384x128_S16x128x128_1_1_2_2_0_0.contr.Idx) :
    (dot_S16x16384x128_S16x16384x128_S16x128x128_1_1_2_2_0_0.lhsIdx i q 0).val = (i 0).val := by
  unfold DotDims.lhsIdx
  rw [dif_pos (show (0 : Fin S16x16384x128.rank) ∈ dot_S16x16384x128_S16x16384x128_S16x128x128_1_1_2_2_0_0.lhsBatch by decide)]
  rfl
theorem gram_lhs_1 (i : S16x128x128.Idx) (q : dot_S16x16384x128_S16x16384x128_S16x128x128_1_1_2_2_0_0.contr.Idx) :
    (dot_S16x16384x128_S16x16384x128_S16x128x128_1_1_2_2_0_0.lhsIdx i q 1).val = (q ⟨0, by decide⟩).val :=
  dot_S16x16384x128_S16x16384x128_S16x128x128_1_1_2_2_0_0.lhsIdx_val_of_single rfl i q
theorem gram_lhs_2 (i : S16x128x128.Idx) (q : dot_S16x16384x128_S16x16384x128_S16x128x128_1_1_2_2_0_0.contr.Idx) :
    (dot_S16x16384x128_S16x16384x128_S16x128x128_1_1_2_2_0_0.lhsIdx i q 2).val = (i 1).val := by
  unfold DotDims.lhsIdx
  rw [dif_neg (show ¬(2 : Fin S16x16384x128.rank) ∈ dot_S16x16384x128_S16x16384x128_S16x128x128_1_1_2_2_0_0.lhsBatch by decide),
    dif_pos (show (2 : Fin S16x16384x128.rank) ∈ dot_S16x16384x128_S16x16384x128_S16x128x128_1_1_2_2_0_0.lhsNonContracting by decide)]
  rfl
theorem gram_rhs_0 (i : S16x128x128.Idx) (q : dot_S16x16384x128_S16x16384x128_S16x128x128_1_1_2_2_0_0.contr.Idx) :
    (dot_S16x16384x128_S16x16384x128_S16x128x128_1_1_2_2_0_0.rhsIdx i q 0).val = (i 0).val := by
  unfold DotDims.rhsIdx
  rw [dif_pos (show (0 : Fin S16x16384x128.rank) ∈ dot_S16x16384x128_S16x16384x128_S16x128x128_1_1_2_2_0_0.rhsBatch by decide)]
  rfl
theorem gram_rhs_1 (i : S16x128x128.Idx) (q : dot_S16x16384x128_S16x16384x128_S16x128x128_1_1_2_2_0_0.contr.Idx) :
    (dot_S16x16384x128_S16x16384x128_S16x128x128_1_1_2_2_0_0.rhsIdx i q 1).val = (q ⟨0, by decide⟩).val :=
  dot_S16x16384x128_S16x16384x128_S16x128x128_1_1_2_2_0_0.rhsIdx_val_of_single rfl i q
theorem gram_rhs_2 (i : S16x128x128.Idx) (q : dot_S16x16384x128_S16x16384x128_S16x128x128_1_1_2_2_0_0.contr.Idx) :
    (dot_S16x16384x128_S16x16384x128_S16x128x128_1_1_2_2_0_0.rhsIdx i q 2).val = (i 2).val := by
  unfold DotDims.rhsIdx
  rw [dif_neg (show ¬(2 : Fin S16x16384x128.rank) ∈ dot_S16x16384x128_S16x16384x128_S16x128x128_1_1_2_2_0_0.rhsBatch by decide),
    dif_pos (show (2 : Fin S16x16384x128.rank) ∈ dot_S16x16384x128_S16x16384x128_S16x128x128_1_1_2_2_0_0.rhsNonContracting by decide)]
  rfl

/-- The Gram product at `(b, c, d)`: the sum over `n` of `L (b, n, c) * R (b, n, d)`. -/
theorem gram_apply (L R : FVec Ideal S16x16384x128 .f32) (b : Fin 16) (c d : Fin 128) :
    Host.dotGeneral (F := Ideal) dot_S16x16384x128_S16x16384x128_S16x128x128_1_1_2_2_0_0 none L R (ix3 b c d)
      = ∑ n : Fin 16384, L (ix3 b n c) * R (ix3 b n d) := by
  simp only [Host.dotGeneral]
  rw [Ideal.dotGeneral_apply,
    ← Equiv.sum_comp (contrEquiv1 dot_S16x16384x128_S16x16384x128_S16x128x128_1_1_2_2_0_0 16384 rfl rfl).symm]
  refine Finset.sum_congr rfl fun n _ => ?_
  have hk := contrEquiv1_symm_val dot_S16x16384x128_S16x16384x128_S16x128x128_1_1_2_2_0_0 16384 rfl rfl n
  have el : dot_S16x16384x128_S16x16384x128_S16x128x128_1_1_2_2_0_0.lhsIdx (ix3 b c d)
      ((contrEquiv1 dot_S16x16384x128_S16x16384x128_S16x128x128_1_1_2_2_0_0 16384 rfl rfl).symm n) = ix3 b n c :=
    funext fun a => Fin.ext (by
      match a with
      | ⟨0, _⟩ => exact gram_lhs_0 _ _
      | ⟨1, _⟩ => exact (gram_lhs_1 _ _).trans hk
      | ⟨2, _⟩ => exact gram_lhs_2 _ _)
  have er : dot_S16x16384x128_S16x16384x128_S16x128x128_1_1_2_2_0_0.rhsIdx (ix3 b c d)
      ((contrEquiv1 dot_S16x16384x128_S16x16384x128_S16x128x128_1_1_2_2_0_0 16384 rfl rfl).symm n) = ix3 b n d :=
    funext fun a => Fin.ext (by
      match a with
      | ⟨0, _⟩ => exact gram_rhs_0 _ _
      | ⟨1, _⟩ => exact (gram_rhs_1 _ _).trans hk
      | ⟨2, _⟩ => exact gram_rhs_2 _ _)
  rw [el, er]

/-! ## The broadcasts -/

/-- A scalar constant broadcast to `[16, 128, 128]` reads the constant's value everywhere. -/
theorem bcastConst_S16x128x128_apply (w : BitVec 32) (b : Fin 16) (c d : Fin 128) :
    broadcastInDim S16x128x128 ![] bcast_S_S16x128x128 (constant (F := Ideal) S_ .f32 w) (ix3 b c d) = Ideal.ofBits .f32 w := rfl
/-- A scalar constant broadcast to `[16, 1, 128]`. -/
theorem bcastConst_S16x1x128_apply (w : BitVec 32) (b : Fin 16) (u : Fin 1) (c : Fin 128) :
    broadcastInDim S16x1x128 ![] bcast_S_S16x1x128 (constant (F := Ideal) S_ .f32 w) (ix3 b u c) = Ideal.ofBits .f32 w := rfl
/-- A scalar constant broadcast to `[128, 128]`. -/
theorem bcastConst_S128x128_apply (w : BitVec 32) (c d : Fin 128) :
    broadcastInDim S128x128 ![] bcast_S_S128x128 (constant (F := Ideal) S_ .f32 w) (ix2 c d) = Ideal.ofBits .f32 w := rfl
/-- A scalar constant broadcast to `[16, 128]`. -/
theorem bcastConst_S16x128_apply (w : BitVec 32) (b : Fin 16) (c : Fin 128) :
    broadcastInDim S16x128 ![] bcast_S_S16x128 (constant (F := Ideal) S_ .f32 w) (ix2 b c) = Ideal.ofBits .f32 w := rfl

/-- A `[128, 128]` array broadcast along a new leading axis: `(b, c, d) ↦ X (c, d)`, at any element type. -/
theorem bcast12_apply {α : Type} (X : S128x128.Idx → α) (b : Fin 16) (c d : Fin 128) :
    broadcastInDim S16x128x128 ![1, 2] bcast_S128x128_S16x128x128_1_2 X (ix3 b c d) = X (ix2 c d) :=
  broadcastInDim_apply _ _ X (ix3 b c d) (ix2 c d) fun a => by
    match a with
    | ⟨0, _⟩ => rfl
    | ⟨1, _⟩ => rfl

/-- The same through the intermediate `[1, 128, 128]`: `(b, c, d) ↦ X (c, d)`. -/
theorem bcast1x_apply {α : Type} (X : S128x128.Idx → α) (b : Fin 16) (c d : Fin 128) :
    broadcastInDim S16x128x128 ![0, 1, 2] bcast_S1x128x128_S16x128x128_0_1_2
      (broadcastInDim S1x128x128 ![1, 2] bcast_S128x128_S1x128x128_1_2 X) (ix3 b c d) = X (ix2 c d) := by
  refine (broadcastInDim_apply _ _ _ (ix3 b c d) (ix3 (0 : Fin 1) c d) fun a => ?_).trans
    (broadcastInDim_apply _ _ X (ix3 (0 : Fin 1) c d) (ix2 c d) fun a => ?_)
  · match a with
    | ⟨0, _⟩ => rfl
    | ⟨1, _⟩ => rfl
    | ⟨2, _⟩ => rfl
  · match a with
    | ⟨0, _⟩ => rfl
    | ⟨1, _⟩ => rfl

/-- A per-batch value broadcast over both matrix axes: `(b, c, d) ↦ v b`. -/
theorem bcastBatch_apply {α : Type} (v : S16.Idx → α) (b : Fin 16) (c d : Fin 128) :
    broadcastInDim S16x128x128 ![0, 1, 2] bcast_S16x1x1_S16x128x128_0_1_2
      (broadcastInDim S16x1x1 ![0] bcast_S16_S16x1x1_0 v) (ix3 b c d) = v (ix1 b) := by
  refine (broadcastInDim_apply _ _ _ (ix3 b c d) (ix3 b (0 : Fin 1) (0 : Fin 1)) fun a => ?_).trans
    (broadcastInDim_apply _ _ v (ix3 b (0 : Fin 1) (0 : Fin 1)) (ix1 b) fun a => ?_)
  · match a with
    | ⟨0, _⟩ => rfl
    | ⟨1, _⟩ => rfl
    | ⟨2, _⟩ => rfl
  · match a with
    | ⟨0, _⟩ => rfl

/-- A `[16, 1, 128]` array broadcast along the long axis: `(b, n, c) ↦ Z (b, 0, c)`. -/
theorem bcastLong_apply {α : Type} (Z : S16x1x128.Idx → α) (b : Fin 16) (n : Fin 16384) (c : Fin 128) :
    broadcastInDim S16x16384x128 ![0, 1, 2] bcast_S16x1x128_S16x16384x128_0_1_2 Z (ix3 b n c) = Z (ix3 b (0 : Fin 1) c) :=
  broadcastInDim_apply _ _ Z (ix3 b n c) (ix3 b (0 : Fin 1) c) fun a => by
    match a with
    | ⟨0, _⟩ => rfl
    | ⟨1, _⟩ => rfl
    | ⟨2, _⟩ => rfl

/-- A `[16, 128]` array given a unit middle axis: `(b, 0, c) ↦ Y (b, c)`. -/
theorem bcastUnit_apply {α : Type} (Y : S16x128.Idx → α) (b : Fin 16) (c : Fin 128) :
    broadcastInDim S16x1x128 ![0, 2] bcast_S16x128_S16x1x128_0_2 Y (ix3 b (0 : Fin 1) c) = Y (ix2 b c) :=
  broadcastInDim_apply _ _ Y (ix3 b (0 : Fin 1) c) (ix2 b c) fun a => by
    match a with
    | ⟨0, _⟩ => rfl
    | ⟨1, _⟩ => rfl

/-! ## The sums over one axis -/

/-- The sum over the long axis: `(b, c) ↦ ∑ n, X (b, n, c)`. -/
theorem sumN_apply (X : FVec Ideal S16x16384x128 .f32) (b : Fin 16) (c : Fin 128) :
    Host.reduceAdd (F := Ideal) X (constant (F := Ideal) S_ .f32 0x00000000#32) reducesTo_S16x16384x128_S16x128_d1 h_S_ (ix2 b c)
      = ∑ n : Fin 16384, X (ix3 b n c) := by
  have h : S16x16384x128.Reduces [1] S16x128 := by decide
  show Ideal.hostReduceAdd reducesTo_S16x16384x128_S16x128_d1 X (Ideal.ofBits .f32 0x00000000#32) (ix2 b c) = _
  rw [Ideal.hostReduceAdd_single _ h, Ideal.ofBits_zero_f32, zero_add]
  refine Finset.sum_congr rfl fun n _ => congrArg X (funext fun a => Fin.ext ?_)
  match a with
  | ⟨0, _⟩ => rfl
  | ⟨1, _⟩ => rfl
  | ⟨2, _⟩ => rfl

/-- The sum over the rows of each matrix: `(b, d) ↦ ∑ c, X (b, c, d)`. -/
theorem sumRow_apply (X : FVec Ideal S16x128x128 .f32) (b : Fin 16) (d : Fin 128) :
    Host.reduceAdd (F := Ideal) X (constant (F := Ideal) S_ .f32 0x00000000#32) reducesTo_S16x128x128_S16x128_d1 h_S_ (ix2 b d)
      = ∑ c : Fin 128, X (ix3 b c d) := by
  have h : S16x128x128.Reduces [1] S16x128 := by decide
  show Ideal.hostReduceAdd reducesTo_S16x128x128_S16x128_d1 X (Ideal.ofBits .f32 0x00000000#32) (ix2 b d) = _
  rw [Ideal.hostReduceAdd_single _ h, Ideal.ofBits_zero_f32, zero_add]
  refine Finset.sum_congr rfl fun c => fun _ => congrArg X (funext fun a => Fin.ext ?_)
  match a with
  | ⟨0, _⟩ => rfl
  | ⟨1, _⟩ => rfl
  | ⟨2, _⟩ => rfl

/-! ## The sum over both matrix axes -/

/-- The sum over both matrix axes: `b ↦ ∑ c, ∑ d, X (b, c, d)`. The indices that reduce to `b` are exactly
    the `(b, c, d)`, so the filtered sum re-indexes through the pairs `(c, d)`. -/
theorem sumBoth_apply (X : FVec Ideal S16x128x128 .f32) (b : Fin 16) :
    Host.reduceAdd (F := Ideal) X (constant (F := Ideal) S_ .f32 0x00000000#32) reducesTo_S16x128x128_S16_d1_2 h_S_ (ix1 b)
      = ∑ c : Fin 128, ∑ d : Fin 128, X (ix3 b c d) := by
  show Ideal.hostReduceAdd reducesTo_S16x128x128_S16_d1_2 X (Ideal.ofBits .f32 0x00000000#32) (ix1 b) = _
  unfold Ideal.hostReduceAdd
  rw [Ideal.ofBits_zero_f32, zero_add, ← Fintype.sum_prod_type' (f := fun c d => X (ix3 b c d))]
  symm
  refine Finset.sum_bij (fun (p : Fin 128 × Fin 128) _ => (ix3 b p.1 p.2 : S16x128x128.Idx)) ?_ ?_ ?_ ?_
  · intro p _
    refine Finset.mem_filter.mpr ⟨Finset.mem_univ _, funext fun a => Fin.ext ?_⟩
    match a with
    | ⟨0, _⟩ => exact Shape.ReducesTo.drop_apply_val_of_eq reducesTo_S16x128x128_S16_d1_2 _ 0 0
  · intro p _ q _ h
    have h1 := congrFun h 1
    have h2 := congrFun h 2
    exact Prod.ext h1 h2
  · intro i hi
    have hd := (Finset.mem_filter.mp hi).2
    have h0 : (i 0).val = b.val := by
      have e := Shape.ReducesTo.drop_apply_val_of_eq reducesTo_S16x128x128_S16_d1_2 i 0 0
      rw [hd] at e
      exact e.symm
    have hb : i 0 = b := Fin.ext h0
    refine ⟨(i 1, i 2), Finset.mem_univ _, ?_⟩
    show ix3 b (i 1) (i 2) = i
    rw [← hb]
    exact (eq_ix3 i).symm
  · intro p _
    rfl

/-! ## The layout of the input, and the last reshape -/

/-- The input `[16, 128, 128, 128]` moved channel-last and flattened over its two spatial axes:
    `(b, n, c) ↦ x (b, c, n / 128, n % 128)`. -/
theorem layout_apply {α : Type} (x : S16x128x128x128.Idx → α) (b : Fin 16) (n : Fin 16384) (c : Fin 128) :
    shapeCast S16x16384x128 (transpose S16x128x128x128 [0, 2, 3, 1] x transposes_S16x128x128x128_S16x128x128x128_0_2_3_1)
        shapeCasts_S16x128x128x128_S16x16384x128 (ix3 b n c)
      = x (ix4 b c (⟨n.val / 128, by have := n.isLt; omega⟩ : Fin 128) (⟨n.val % 128, Nat.mod_lt _ (by decide)⟩ : Fin 128)) := by
  refine (shapeCast_apply _ _ (ix3 b n c)
    (ix4 b (⟨n.val / 128, by have := n.isLt; omega⟩ : Fin 128) (⟨n.val % 128, Nat.mod_lt _ (by decide)⟩ : Fin 128) c) ?_).trans
    (transpose_apply _ x _ _ _ fun a => ?_)
  · rw [Shape.rowMajor_val_four, Shape.rowMajor_val_three]
    show ((b.val * 128 + n.val / 128) * 128 + n.val % 128) * 128 + c.val = (b.val * 16384 + n.val) * 128 + c.val
    omega
  · match a with
    | ⟨0, _⟩ => rfl
    | ⟨1, _⟩ => rfl
    | ⟨2, _⟩ => rfl
    | ⟨3, _⟩ => rfl

/-- The last reshape gives a `[16, 128]` array two trailing unit axes: `(b, c, 0, 0) ↦ Y (b, c)`. -/
theorem reshapeOut_apply {α : Type} (Y : S16x128.Idx → α) (b : Fin 16) (c : Fin 128) :
    shapeCast S16x128x1x1 Y shapeCasts_S16x128_S16x128x1x1 (ix4 b c (0 : Fin 1) (0 : Fin 1)) = Y (ix2 b c) := by
  refine shapeCast_apply _ _ _ (ix2 b c) ?_
  rw [Shape.rowMajor_val_four, Shape.rowMajor_val_two]
  show b.val * 128 + c.val = ((b.val * 128 + c.val) * 1 + 0) * 1 + 0
  omega

/-! ## The identity masks, and the select on one -/

/-- Two coordinates below 128 are equal as 32-bit words exactly when they are equal. -/
theorem ofNat32_eq_iff (c d : Fin 128) : BitVec.ofNat 32 c.val = BitVec.ofNat 32 d.val ↔ c = d := by
  constructor
  · intro h
    have h' := congrArg BitVec.toNat h
    simp only [BitVec.toNat_ofNat] at h'
    have hc := c.isLt
    have hd := d.isLt
    exact Fin.ext (by omega)
  · rintro rfl
    rfl

/-- The bit "row = column" of the `[128, 128]` index grid. -/
theorem eyeMask_apply (c d : Fin 128) :
    cmpi .eq (iotaInDim S128x128 32 0) (iotaInDim S128x128 32 1) (ix2 c d) = if c = d then 1#1 else 0#1 := by
  show BitVec.ofBool (BitVec.ofNat 32 c.val == BitVec.ofNat 32 d.val) = _
  by_cases h : c = d
  · subst h
    rw [if_pos rfl, beq_self_eq_true]
    rfl
  · rw [if_neg h, beq_eq_false_iff_ne.mpr fun e => h ((ofNat32_eq_iff c d).mp e)]
    rfl

/-- The same bit with a zero added to the row coordinate, converted to a float: the identity matrix's entry. -/
theorem eyeF_apply (c d : Fin 128) :
    uitofp (F := Ideal) .f32 (cmpi .eq (addi (iotaInDim S128x128 32 0)
        (broadcastInDim S128x128 ![] bcast_S_S128x128 (constantI S_ 32 0#32))) (iotaInDim S128x128 32 1)) (ix2 c d)
      = if c = d then (1 : EReal) else 0 := by
  show (((BitVec.ofBool (BitVec.ofNat 32 c.val + 0#32 == BitVec.ofNat 32 d.val)).toNat : ℝ) : EReal) = _
  rw [BitVec.add_zero]
  by_cases h : c = d
  · subst h
    rw [if_pos rfl, beq_self_eq_true]
    simp
  · rw [if_neg h, beq_eq_false_iff_ne.mpr fun e => h ((ofNat32_eq_iff c d).mp e)]
    simp

/-- A select on the broadcast "row = column" bit keeps the diagonal of the first operand and takes the second elsewhere. -/
theorem selectEye_apply (X Z : FVec Ideal S16x128x128 .f32) (b : Fin 16) (c d : Fin 128) :
    select (broadcastInDim S16x128x128 ![1, 2] bcast_S128x128_S16x128x128_1_2
        (cmpi .eq (iotaInDim S128x128 32 0) (iotaInDim S128x128 32 1))) X Z (ix3 b c d)
      = if c = d then X (ix3 b c d) else Z (ix3 b c d) := by
  rw [select_apply, bcast12_apply, eyeMask_apply]
  by_cases h : c = d
  · rw [if_pos h, if_pos h, select_one]
  · rw [if_neg h, if_neg h, select_zero]

/-! ## The host's elementwise quotient and square root -/

/-- The host's quotient at an index is the ideal division of the elements. -/
theorem hostDivf_apply {s : Shape} {φ : FTy} (X Y : FVec Ideal s φ) (i : s.Idx) : Host.divf X Y i = Ideal.div (X i) (Y i) := rfl
/-- The host's square root at an index is the ideal square root of the element. -/
theorem hostSqrt_apply {s : Shape} {φ : FTy} (X : FVec Ideal s φ) (i : s.Idx) : Host.sqrt X i = Ideal.sqrt (X i) := rfl

end Cert.ReferenceIdeal.Ops

end
-- ==== Proof.RefStages.lean ====
/-
  The idealized reference, stage by stage, as the specification's matrices — one batch entry at a time.

  The reference works on whole [16, 128, 128] arrays; read at batch entry b each of its named intermediate arrays is the
  specification's operation on the same entry of the arrays it is built from: a batched product is the matrix product of
  the entries, a broadcast identity is the identity, a splat is the constant. Chaining the stages gives the result row
  of entry b as `tailOut` of the normalized (centred) covariance of that entry's channel-by-position matrix.
-/
import proofs.«156180_j91319594647822_2_alg».proof.Proof.RefOps
import proofs.«156180_j91319594647822_2_alg».proof.Proof.Cov

noncomputable section

open scoped BigOperators

namespace Cert.ReferenceIdeal.Stages

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.Spec Cert.ReferenceIdeal.Ops

/-- Batch entry b of a [16, 128, 128] array, by coordinates. -/
def cur3 (X : FVec Ideal S16x128x128 .f32) (b : Fin 16) : Mat := fun c d => X (ix3 b c d)

/-- Batch entry b of the argument as a channel-by-position matrix: position n is (n / 128, n % 128). -/
def refMat (x : S16x128x128x128.Idx → EReal) (b : Fin 16) : Fin 128 → Fin 16384 → EReal := fun c n =>
  x (ix4 b c (⟨n.val / 128, by have := n.isLt; omega⟩ : Fin 128) (⟨n.val % 128, Nat.mod_lt _ (by decide)⟩ : Fin 128))

/-! ## The step operations on whole arrays, read at one batch entry -/

section Generic
variable (I26 : FVec Ideal S128x128 .f32) (Y T A B : FVec Ideal S16x128x128 .f32) (b : Fin 16)

/-- Three times the broadcast identity minus a batched product is `tmat` of the entries. -/
theorem tmat_of (hI : ∀ c d, I26 (ix2 c d) = eye c d) :
    cur3 (subf (broadcastInDim S16x128x128 ![0, 1, 2] bcast_S1x128x128_S16x128x128_0_1_2
        (broadcastInDim S1x128x128 ![1, 2] bcast_S128x128_S1x128x128_1_2
          (mulf (broadcastInDim S128x128 ![] bcast_S_S128x128 (constant (F := Ideal) S_ .f32 0x40400000#32)) I26)))
      (Host.dotGeneral (F := Ideal) dot_S16x128x128_S16x128x128_S16x128x128_2_1_1_2_0_0 none A B)) b
      = tmat (cur3 A b) (cur3 B b) := by
  funext c d
  show _ = Ideal.ofBits .f32 0x40400000#32 * eye c d - ∑ k : Fin 128, A (ix3 b c k) * B (ix3 b k d)
  unfold cur3
  rw [subf_apply, bcast1x_apply, mulf_apply, bcastConst_S128x128_apply, bmm_apply, hI]

/-- Half an array times another, entry by entry, is `ynext` of the entries. -/
theorem ynext_of :
    cur3 (mulf (mulf (broadcastInDim S16x128x128 ![] bcast_S_S16x128x128 (constant (F := Ideal) S_ .f32 0x3F000000#32)) Y) T) b
      = ynext (cur3 Y b) (cur3 T b) := by
  funext c d
  show _ = (Ideal.ofBits .f32 0x3F000000#32 * Y (ix3 b c d)) * T (ix3 b c d)
  unfold cur3
  rw [mulf_apply, mulf_apply, bcastConst_S16x128x128_apply]

/-- The batched product of half an array with another is `znext` of the entries. -/
theorem znext_of :
    cur3 (Host.dotGeneral (F := Ideal) dot_S16x128x128_S16x128x128_S16x128x128_2_1_1_2_0_0 none
        (mulf (broadcastInDim S16x128x128 ![] bcast_S_S16x128x128 (constant (F := Ideal) S_ .f32 0x3F000000#32)) T) A) b
      = znext (cur3 T b) (cur3 A b) := by
  funext c d
  show _ = ∑ k : Fin 128, (Ideal.ofBits .f32 0x3F000000#32 * T (ix3 b c k)) * A (ix3 b k d)
  unfold cur3
  rw [bmm_apply]
  refine Finset.sum_congr rfl fun k _ => ?_
  rw [mulf_apply, bcastConst_S16x128x128_apply]

/-- A long array minus the broadcast of its position means: each row centred by its mean. -/
theorem center_of (X1 : FVec Ideal S16x16384x128 .f32) (n : Fin 16384) (c : Fin 128) :
    subf X1 (broadcastInDim S16x16384x128 ![0, 1, 2] bcast_S16x1x128_S16x16384x128_0_1_2
        (Host.divf (broadcastInDim S16x1x128 ![0, 2] bcast_S16x128_S16x1x128_0_2
            (Host.reduceAdd (F := Ideal) X1 (constant (F := Ideal) S_ .f32 0x00000000#32) reducesTo_S16x16384x128_S16x128_d1 h_S_))
          (broadcastInDim S16x1x128 ![] bcast_S_S16x1x128 (constant (F := Ideal) S_ .f32 0x46800000#32)))) (ix3 b n c)
      = X1 (ix3 b n c) - Ideal.div (∑ k : Fin 16384, X1 (ix3 b k c)) wN := by
  show _ = X1 (ix3 b n c) - Ideal.div (∑ k : Fin 16384, X1 (ix3 b k c)) (Ideal.ofBits .f32 0x46800000#32)
  rw [subf_apply, bcastLong_apply, hostDivf_apply, bcastUnit_apply, sumN_apply, bcastConst_S16x1x128_apply]

/-- An array divided by the broadcast sum of its selected diagonal: each entry's matrix divided by its trace. -/
theorem normalize_of (S : FVec Ideal S16x128x128 .f32) :
    cur3 (Host.divf S (broadcastInDim S16x128x128 ![0, 1, 2] bcast_S16x1x1_S16x128x128_0_1_2
        (broadcastInDim S16x1x1 ![0] bcast_S16_S16x1x1_0
          (Host.reduceAdd (F := Ideal) (select (broadcastInDim S16x128x128 ![1, 2] bcast_S128x128_S16x128x128_1_2
              (cmpi .eq (iotaInDim S128x128 32 0) (iotaInDim S128x128 32 1))) S
              (broadcastInDim S16x128x128 ![] bcast_S_S16x128x128 (constant (F := Ideal) S_ .f32 0x00000000#32)))
            (constant (F := Ideal) S_ .f32 0x00000000#32) reducesTo_S16x128x128_S16_d1_2 h_S_)))) b
      = Cert.Spec.normalize (cur3 S b) := by
  funext c d
  unfold cur3 Cert.Spec.normalize
  rw [hostDivf_apply, bcastBatch_apply, sumBoth_apply, ← sum_ite_diag]
  refine congrArg (Ideal.div _) (Finset.sum_congr rfl fun c' _ => Finset.sum_congr rfl fun d' _ => ?_)
  rw [selectEye_apply, bcastConst_S16x128x128_apply, Ideal.ofBits_zero_f32]

/-- The tail on whole arrays: the column means of the array scaled by the square root of its selected-diagonal sum,
    reshaped, is `finish` of the entry. -/
theorem finish_of (c : Fin 128) :
    shapeCast S16x128x1x1 (Host.divf (Host.reduceAdd (F := Ideal)
        (mulf (broadcastInDim S16x128x128 ![0, 1, 2] bcast_S16x1x1_S16x128x128_0_1_2
            (broadcastInDim S16x1x1 ![0] bcast_S16_S16x1x1_0 (Host.sqrt
              (Host.reduceAdd (F := Ideal) (select (broadcastInDim S16x128x128 ![1, 2] bcast_S128x128_S16x128x128_1_2
                  (cmpi .eq (iotaInDim S128x128 32 0) (iotaInDim S128x128 32 1))) Y
                  (broadcastInDim S16x128x128 ![] bcast_S_S16x128x128 (constant (F := Ideal) S_ .f32 0x00000000#32)))
                (constant (F := Ideal) S_ .f32 0x00000000#32) reducesTo_S16x128x128_S16_d1_2 h_S_)))) Y)
        (constant (F := Ideal) S_ .f32 0x00000000#32) reducesTo_S16x128x128_S16x128_d1 h_S_)
      (broadcastInDim S16x128 ![] bcast_S_S16x128 (constant (F := Ideal) S_ .f32 0x43000000#32)))
      shapeCasts_S16x128_S16x128x1x1 (ix4 b c (0 : Fin 1) (0 : Fin 1))
      = finish (cur3 Y b) c := by
  rw [reshapeOut_apply, hostDivf_apply, sumRow_apply, bcastConst_S16x128_apply]
  unfold finish colMean
  refine congrArg (fun s => Ideal.div s c128) (Finset.sum_congr rfl fun c' _ => ?_)
  rw [mulf_apply, bcastBatch_apply, hostSqrt_apply, sumBoth_apply, ← sum_ite_diag]
  refine congrArg (fun s => Ideal.sqrt s * Y (ix3 b c' c)) (Finset.sum_congr rfl fun c'' _ => Finset.sum_congr rfl fun d'' _ => ?_)
  rw [selectEye_apply, bcastConst_S16x128x128_apply, Ideal.ofBits_zero_f32]
  rfl

end Generic

/-! ## The first stage: the centred covariance and its normalization -/

/-- The input moved channel-last and flattened is the entry's channel-by-position matrix. -/
theorem v1_apply (V0 : Valuation τ sig (Elt Ideal)) (b : Fin 16) (n : Fin 16384) (c : Fin 128) :
    res_main_v1 (F := Ideal) V0 (ix3 b n c) = refMat (V0 (Proc.devRef .tc main_arg0)) b c n := by
  unfold res_main_v1
  exact layout_apply _ b n c

/-- Each row centred by its mean. -/
theorem v7_apply (V0 : Valuation τ sig (Elt Ideal)) (b : Fin 16) (n : Fin 16384) (c : Fin 128) :
    res_main_v7 (F := Ideal) V0 (ix3 b n c)
      = refMat (V0 (Proc.devRef .tc main_arg0)) b c n - Ideal.div (∑ k : Fin 16384, refMat (V0 (Proc.devRef .tc main_arg0)) b c k) wN := by
  unfold res_main_v7
  rw [center_of, v1_apply]
  refine congrArg (fun s => _ - Ideal.div s wN) (Finset.sum_congr rfl fun k _ => ?_)
  exact v1_apply V0 b k c

/-- The centred covariance of the entry. -/
theorem v10_eq (V0 : Valuation τ sig (Elt Ideal)) (b : Fin 16) :
    cur3 (res_main_v10 (F := Ideal) V0) b = covR (refMat (V0 (Proc.devRef .tc main_arg0)) b) := by
  funext c d
  unfold cur3 res_main_v10 covR
  rw [hostDivf_apply, gram_apply, bcastConst_S16x128x128_apply]
  refine congrArg (fun s => Ideal.div s wN) (Finset.sum_congr rfl fun n _ => ?_)
  rw [v7_apply, v7_apply]

/-- The covariance divided by its trace. -/
theorem v20_eq (V0 : Valuation τ sig (Elt Ideal)) (b : Fin 16) :
    cur3 (res_main_v20 (F := Ideal) V0) b = Cert.Spec.normalize (covR (refMat (V0 (Proc.devRef .tc main_arg0)) b)) := by
  unfold res_main_v20
  rw [normalize_of, v10_eq]

/-! ## The identity -/

/-- The converted "row = column" bit is the identity matrix's entry. -/
theorem v26_apply (V0 : Valuation τ sig (Elt Ideal)) (c d : Fin 128) : res_main_v26 (F := Ideal) V0 (ix2 c d) = eye c d := by
  unfold res_main_v26
  exact eyeF_apply c d

/-- Broadcast over the batch, every entry is the identity. -/
theorem v27_eq (V0 : Valuation τ sig (Elt Ideal)) (b : Fin 16) : cur3 (res_main_v27 (F := Ideal) V0) b = eye := by
  funext c d
  unfold cur3 res_main_v27
  rw [bcast12_apply]
  exact v26_apply V0 c d

/-! ## The six steps, each named intermediate array read at one batch entry

`Y` below is the trace-normalized covariance of the entry, `cur3 (res_main_v20 V0) b`; the second factor of the first
product `Z₁` is the broadcast identity. -/

theorem v33_eq (V0 : Valuation τ sig (Elt Ideal)) (b : Fin 16) :
    cur3 (res_main_v33 (F := Ideal) V0) b = T1 (cur3 (res_main_v20 (F := Ideal) V0) b) := by
  show _ = tmat eye (cur3 (res_main_v20 (F := Ideal) V0) b)
  unfold res_main_v33
  rw [tmat_of _ _ _ b (v26_apply V0), v27_eq V0 b]

theorem v36_eq (V0 : Valuation τ sig (Elt Ideal)) (b : Fin 16) :
    cur3 (res_main_v36 (F := Ideal) V0) b = Y2 (cur3 (res_main_v20 (F := Ideal) V0) b) := by
  show _ = ynext (cur3 (res_main_v20 (F := Ideal) V0) b) (T1 (cur3 (res_main_v20 (F := Ideal) V0) b))
  unfold res_main_v36
  rw [ynext_of, v33_eq V0 b]

theorem v39_eq (V0 : Valuation τ sig (Elt Ideal)) (b : Fin 16) :
    cur3 (res_main_v39 (F := Ideal) V0) b = Z2 (cur3 (res_main_v20 (F := Ideal) V0) b) := by
  show _ = znext (T1 (cur3 (res_main_v20 (F := Ideal) V0) b)) eye
  unfold res_main_v39
  rw [znext_of, v33_eq V0 b, v27_eq V0 b]

theorem v45_eq (V0 : Valuation τ sig (Elt Ideal)) (b : Fin 16) :
    cur3 (res_main_v45 (F := Ideal) V0) b = T2 (cur3 (res_main_v20 (F := Ideal) V0) b) := by
  show _ = tmat (Z2 (cur3 (res_main_v20 (F := Ideal) V0) b)) (Y2 (cur3 (res_main_v20 (F := Ideal) V0) b))
  unfold res_main_v45
  rw [tmat_of _ _ _ b (v26_apply V0), v39_eq V0 b, v36_eq V0 b]

theorem v48_eq (V0 : Valuation τ sig (Elt Ideal)) (b : Fin 16) :
    cur3 (res_main_v48 (F := Ideal) V0) b = Y3 (cur3 (res_main_v20 (F := Ideal) V0) b) := by
  show _ = ynext (Y2 (cur3 (res_main_v20 (F := Ideal) V0) b)) (T2 (cur3 (res_main_v20 (F := Ideal) V0) b))
  unfold res_main_v48
  rw [ynext_of, v36_eq V0 b, v45_eq V0 b]

theorem v51_eq (V0 : Valuation τ sig (Elt Ideal)) (b : Fin 16) :
    cur3 (res_main_v51 (F := Ideal) V0) b = Z3 (cur3 (res_main_v20 (F := Ideal) V0) b) := by
  show _ = znext (T2 (cur3 (res_main_v20 (F := Ideal) V0) b)) (Z2 (cur3 (res_main_v20 (F := Ideal) V0) b))
  unfold res_main_v51
  rw [znext_of, v45_eq V0 b, v39_eq V0 b]

theorem v57_eq (V0 : Valuation τ sig (Elt Ideal)) (b : Fin 16) :
    cur3 (res_main_v57 (F := Ideal) V0) b = T3 (cur3 (res_main_v20 (F := Ideal) V0) b) := by
  show _ = tmat (Z3 (cur3 (res_main_v20 (F := Ideal) V0) b)) (Y3 (cur3 (res_main_v20 (F := Ideal) V0) b))
  unfold res_main_v57
  rw [tmat_of _ _ _ b (v26_apply V0), v51_eq V0 b, v48_eq V0 b]

theorem v60_eq (V0 : Valuation τ sig (Elt Ideal)) (b : Fin 16) :
    cur3 (res_main_v60 (F := Ideal) V0) b = Y4 (cur3 (res_main_v20 (F := Ideal) V0) b) := by
  show _ = ynext (Y3 (cur3 (res_main_v20 (F := Ideal) V0) b)) (T3 (cur3 (res_main_v20 (F := Ideal) V0) b))
  unfold res_main_v60
  rw [ynext_of, v48_eq V0 b, v57_eq V0 b]

theorem v63_eq (V0 : Valuation τ sig (Elt Ideal)) (b : Fin 16) :
    cur3 (res_main_v63 (F := Ideal) V0) b = Z4 (cur3 (res_main_v20 (F := Ideal) V0) b) := by
  show _ = znext (T3 (cur3 (res_main_v20 (F := Ideal) V0) b)) (Z3 (cur3 (res_main_v20 (F := Ideal) V0) b))
  unfold res_main_v63
  rw [znext_of, v57_eq V0 b, v51_eq V0 b]

theorem v69_eq (V0 : Valuation τ sig (Elt Ideal)) (b : Fin 16) :
    cur3 (res_main_v69 (F := Ideal) V0) b = T4 (cur3 (res_main_v20 (F := Ideal) V0) b) := by
  show _ = tmat (Z4 (cur3 (res_main_v20 (F := Ideal) V0) b)) (Y4 (cur3 (res_main_v20 (F := Ideal) V0) b))
  unfold res_main_v69
  rw [tmat_of _ _ _ b (v26_apply V0), v63_eq V0 b, v60_eq V0 b]

theorem v72_eq (V0 : Valuation τ sig (Elt Ideal)) (b : Fin 16) :
    cur3 (res_main_v72 (F := Ideal) V0) b = Y5 (cur3 (res_main_v20 (F := Ideal) V0) b) := by
  show _ = ynext (Y4 (cur3 (res_main_v20 (F := Ideal) V0) b)) (T4 (cur3 (res_main_v20 (F := Ideal) V0) b))
  unfold res_main_v72
  rw [ynext_of, v60_eq V0 b, v69_eq V0 b]

theorem v75_eq (V0 : Valuation τ sig (Elt Ideal)) (b : Fin 16) :
    cur3 (res_main_v75 (F := Ideal) V0) b = Z5 (cur3 (res_main_v20 (F := Ideal) V0) b) := by
  show _ = znext (T4 (cur3 (res_main_v20 (F := Ideal) V0) b)) (Z4 (cur3 (res_main_v20 (F := Ideal) V0) b))
  unfold res_main_v75
  rw [znext_of, v69_eq V0 b, v63_eq V0 b]

theorem v81_eq (V0 : Valuation τ sig (Elt Ideal)) (b : Fin 16) :
    cur3 (res_main_v81 (F := Ideal) V0) b = T5 (cur3 (res_main_v20 (F := Ideal) V0) b) := by
  show _ = tmat (Z5 (cur3 (res_main_v20 (F := Ideal) V0) b)) (Y5 (cur3 (res_main_v20 (F := Ideal) V0) b))
  unfold res_main_v81
  rw [tmat_of _ _ _ b (v26_apply V0), v75_eq V0 b, v72_eq V0 b]

theorem v84_eq (V0 : Valuation τ sig (Elt Ideal)) (b : Fin 16) :
    cur3 (res_main_v84 (F := Ideal) V0) b = Y6 (cur3 (res_main_v20 (F := Ideal) V0) b) := by
  show _ = ynext (Y5 (cur3 (res_main_v20 (F := Ideal) V0) b)) (T5 (cur3 (res_main_v20 (F := Ideal) V0) b))
  unfold res_main_v84
  rw [ynext_of, v72_eq V0 b, v81_eq V0 b]

theorem v87_eq (V0 : Valuation τ sig (Elt Ideal)) (b : Fin 16) :
    cur3 (res_main_v87 (F := Ideal) V0) b = Z6 (cur3 (res_main_v20 (F := Ideal) V0) b) := by
  show _ = znext (T5 (cur3 (res_main_v20 (F := Ideal) V0) b)) (Z5 (cur3 (res_main_v20 (F := Ideal) V0) b))
  unfold res_main_v87
  rw [znext_of, v81_eq V0 b, v75_eq V0 b]

theorem v93_eq (V0 : Valuation τ sig (Elt Ideal)) (b : Fin 16) :
    cur3 (res_main_v93 (F := Ideal) V0) b = T6 (cur3 (res_main_v20 (F := Ideal) V0) b) := by
  show _ = tmat (Z6 (cur3 (res_main_v20 (F := Ideal) V0) b)) (Y6 (cur3 (res_main_v20 (F := Ideal) V0) b))
  unfold res_main_v93
  rw [tmat_of _ _ _ b (v26_apply V0), v87_eq V0 b, v84_eq V0 b]

theorem v96_eq (V0 : Valuation τ sig (Elt Ideal)) (b : Fin 16) :
    cur3 (res_main_v96 (F := Ideal) V0) b = Y7 (cur3 (res_main_v20 (F := Ideal) V0) b) := by
  show _ = ynext (Y6 (cur3 (res_main_v20 (F := Ideal) V0) b)) (T6 (cur3 (res_main_v20 (F := Ideal) V0) b))
  unfold res_main_v96
  rw [ynext_of, v84_eq V0 b, v93_eq V0 b]

/-! ## The result -/

/-- The reference's result as a function of the arguments' launch contents: the program's own composed term. -/
def refOut (V0 : Valuation τ sig (Elt Ideal)) : (Proc.devRef .tc main_v114 : DevRef τ sig).ty.Contents (Elt Ideal) :=
  shapeCast _ (Host.divf (Host.reduceAdd (mulf (broadcastInDim S16x128x128 ![0, 1, 2] bcast_S16x1x1_S16x128x128_0_1_2 (broadcastInDim S16x1x1 ![0] bcast_S16_S16x1x1_0 (Host.sqrt (Host.reduceAdd (select (broadcastInDim S16x128x128 ![1, 2] bcast_S128x128_S16x128x128_1_2 (cmpi .eq (iotaInDim S128x128 32 0) (iotaInDim S128x128 32 1))) (res_main_v96 V0) (broadcastInDim S16x128x128 ![] bcast_S_S16x128x128 (constant S_ .f32 0x00000000#32))) (constant S_ .f32 0x00000000#32) reducesTo_S16x128x128_S16_d1_2 h_S_)))) (res_main_v96 V0)) (constant S_ .f32 0x00000000#32) reducesTo_S16x128x128_S16x128_d1 h_S_) (broadcastInDim S16x128 ![] bcast_S_S16x128 (constant S_ .f32 0x43000000#32))) shapeCasts_S16x128_S16x128x1x1

/-- The reference's run, with its result named: every weakly fair execution ends with the result buffer at `refOut` of
    the launch contents and the argument unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = refOut (launchContents m c)
      ∧ r.2.mem ((c.tc : Thread nD τ).loc main_arg0) = m ((c.tc : Thread nD τ).loc main_arg0) :=
  Cert.ReferenceIdeal.Value.run (F := Ideal) m ρ

/-- The launch contents at the argument are the memory at the argument's location. -/
theorem launch_arg (m : (ℓ : Loc nD τ sig) → Buf (Elt Ideal) ℓ) (c : Dev nD) :
    launchContents m c (Proc.devRef .tc main_arg0) = m ((c.tc : Thread nD τ).loc main_arg0) := rfl

/-- The result row of batch entry b: the specification's tail of the normalized centred covariance of the entry's
    channel-by-position matrix. -/
theorem refOut_apply (V0 : Valuation τ sig (Elt Ideal)) (b : Fin 16) (c : Fin 128) :
    refOut V0 (ix4 b c (0 : Fin 1) (0 : Fin 1))
      = tailOut (Cert.Spec.normalize (covR (refMat (V0 (Proc.devRef .tc main_arg0)) b))) c := by
  show _ = finish (Y7 (Cert.Spec.normalize (covR (refMat (V0 (Proc.devRef .tc main_arg0)) b)))) c
  unfold refOut
  refine (finish_of (res_main_v96 (F := Ideal) V0) b c).trans ?_
  rw [v96_eq, v20_eq]

end Cert.ReferenceIdeal.Stages

end
-- ==== Proof.Claims.lean ====
import proofs.«156180_j91319594647822_2_alg».proof.Defs
import proofs.«156180_j91319594647822_2_alg».proof.Proof.Gen.Kernel.Frame
import proofs.«156180_j91319594647822_2_alg».proof.Proof.Gen.KernelIdeal.Frame
import proofs.«156180_j91319594647822_2_alg».proof.Proof.Gen.ReferenceIdeal.Run
import proofs.«156180_j91319594647822_2_alg».proof.Proof.Gen.Pre_finite_inputs
import Idealize.ShloMosaic.Lib.ValueIdx
import proofs.«156180_j91319594647822_2_alg».proof.Proof.Cov
import proofs.«156180_j91319594647822_2_alg».proof.Proof.KernelRun
import proofs.«156180_j91319594647822_2_alg».proof.Proof.Finite
import proofs.«156180_j91319594647822_2_alg».proof.Proof.KerStages
import proofs.«156180_j91319594647822_2_alg».proof.Proof.KerOut
import proofs.«156180_j91319594647822_2_alg».proof.Proof.RefStages

/-!
# The claims

Both programs, read at the ideal instance, return for every batch entry `b` and channel `c` the same function of the
argument array: `tailOut` of the trace-normalized covariance of the batch entry's channel-by-position matrix, at `c`.
The two programs take that covariance by different formulas, which agree on matrices of real entries; the
precondition says every entry of the argument is real.
-/

noncomputable section

open Idealize.ShloMosaic Idealize.ShloMosaic.TcCoe Idealize.ShloMosaic.ValueIdx Idealize.SL.Sem

namespace Cert.Proof.Claims

/-! ## The runs that claim nothing of the values -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: no operation was rewritten. -/
theorem preserves : Cert.preserves_Kernel_KernelIdeal := trivial

/-! ## The two programs' matrices of a batch entry -/

/-- The kernel's staged block of batch entry `b`, as a channel-by-position matrix, is the reference's matrix of that
    entry: both read `x[b, c, n / 128, n % 128]` at `(c, n)`. -/
theorem blk_ref (x : Cert.KernelIdeal.S16x128x128x128.Idx → EReal) (b : Fin 16) :
    Cert.KernelIdeal.Stages.blkMat (Cert.KernelIdeal.Arr.blockOf x b) = Cert.ReferenceIdeal.Stages.refMat x b := by
  funext c n
  rfl

/-- The kernel's result at `(b, c, 0, 0)`: `tailOut` of the normalized covariance, by the kernel's formula, of batch
    entry `b`'s matrix, at channel `c`. -/
theorem outArr_apply (x : Cert.KernelIdeal.S16x128x128x128.Idx → EReal) (b : Fin 16) (c : Fin 128) :
    Cert.KernelIdeal.Arr.outArr x (ix4 b c (0 : Fin 1) (0 : Fin 1))
      = Cert.Spec.tailOut (Cert.Spec.normalize (Cert.Spec.covK (Cert.ReferenceIdeal.Stages.refMat x b))) c := by
  show Cert.KernelIdeal.Gen.out0_1 (F := Ideal) (Cert.KernelIdeal.Arr.blockOf x b) (ix3 (0 : Fin 1) (0 : Fin 1) c) = _
  rw [Cert.KernelIdeal.Stages.out_at, blk_ref]

/-- On an argument array of real entries the reference's result array is the kernel's: the two covariance formulas
    agree on real matrices, and everything after the covariance is one function. -/
theorem result_eq (V0 : Valuation Cert.ReferenceIdeal.τ Cert.ReferenceIdeal.sig (Elt Ideal))
    (x : Cert.KernelIdeal.S16x128x128x128.Idx → EReal)
    (hV : V0 (Proc.devRef .tc Cert.ReferenceIdeal.main_arg0) = x) (hx : ∀ i, ∃ r : ℝ, x i = (r : EReal)) :
    (Cert.ReferenceIdeal.Stages.refOut V0 : Cert.KernelIdeal.S16x128x1x1.Idx → EReal) = Cert.KernelIdeal.Arr.outArr x := by
  funext i
  obtain ⟨b, c, z, z', rfl⟩ : ∃ (b : Fin 16) (c : Fin 128) (z z' : Fin 1), i = ix4 b c z z' := ⟨_, _, _, _, eq_ix4 i⟩
  obtain rfl : z = 0 := Subsingleton.elim _ _
  obtain rfl : z' = 0 := Subsingleton.elim _ _
  rw [outArr_apply x b c, Cert.Spec.cov_eq (Cert.ReferenceIdeal.Stages.refMat x b) (fun c n => hx _)]
  subst hV
  exact Cert.ReferenceIdeal.Stages.refOut_apply V0 b c

/-! ## The claim at the ideal instance -/

/-- From argument arrays that agree and whose entries are all real, both programs end with the same result array:
    the kernel's `outArr` of the argument. -/
theorem algebraic : Cert.algebraic_KernelIdeal_ReferenceIdeal := by
  intro m ρ m' ρ' hpre hagree
  refine ⟨fun c => Cert.KernelIdeal.Arr.outArr
    (m ((c.tc : Thread Cert.KernelIdeal.nD Cert.KernelIdeal.τ).loc Cert.KernelIdeal.main_arg0)), Cert.KernelIdeal.Arr.run m ρ, ?_⟩
  refine (θ_run Cert.ReferenceIdeal.defs _ _).mono (fun _ h c => ⟨(h c).1.trans ?_, (h c).2⟩)
    (Cert.ReferenceIdeal.Stages.run' m' ρ')
  exact result_eq (StableHlo.launchContents m' c) _ ((Cert.ReferenceIdeal.Stages.launch_arg m' c).trans (hagree c))
    (fun i => Cert.KernelIdeal.Fin.real_of_pre m hpre c i)

end Cert.Proof.Claims

end
-- ==== Proof.lean ====
/-
  The claim of this certificate, assembled.

  Each batch entry of the input is a 128 × 16384 channel-by-position matrix X. The kernel forms the covariance as
  E[x xᵀ] − m mᵀ with the folded reciprocal 2⁻¹⁴ = 1/16384, the reference centres X by its row means and divides by
  16384; on finite inputs these are one real matrix (the one place finiteness is used: a product is distributed over a
  difference). From there both programs divide by the trace, run the same six coupled Newton–Schulz steps, scale the
  last iterate by the square root of its trace and average its columns; the kernel takes traces by masking with the
  identity and summing rows then the column of row sums, the reference by selecting the diagonal against zero and summing
  both axes at once, and on the extended reals both leave the sum of the diagonal. The kernel does this per grid point
  on one block, the reference on the whole batch at once; read at one batch entry the reference's arrays are the
  kernel's matrices. The modules under Proof/ carry the steps: Spec (the common function), Cov (the covariance
  identity), KerOps / KerStages / KerOut (the kernel's body as that function), KernelRun (the region's blocks as one array
  and the reshapes around it), RefOps / RefStages (the reference's arrays entry by entry), Finite (finite inputs are
  real), Claims (the two results are equal, and the frames).
-/
import proofs.«156180_j91319594647822_2_alg».proof.Defs
import proofs.«156180_j91319594647822_2_alg».proof.Proof.Gen.Kernel
import proofs.«156180_j91319594647822_2_alg».proof.Proof.Gen.Kernel.Skeleton
import proofs.«156180_j91319594647822_2_alg».proof.Proof.Gen.Kernel.Launch
import proofs.«156180_j91319594647822_2_alg».proof.Proof.Gen.Kernel.Points
import proofs.«156180_j91319594647822_2_alg».proof.Proof.Gen.Kernel.Frame
import proofs.«156180_j91319594647822_2_alg».proof.Proof.Gen.KernelIdeal
import proofs.«156180_j91319594647822_2_alg».proof.Proof.Gen.KernelIdeal.Skeleton
import proofs.«156180_j91319594647822_2_alg».proof.Proof.Gen.KernelIdeal.Launch
import proofs.«156180_j91319594647822_2_alg».proof.Proof.Gen.KernelIdeal.Points
import proofs.«156180_j91319594647822_2_alg».proof.Proof.Gen.KernelIdeal.Frame
import proofs.«156180_j91319594647822_2_alg».proof.Proof.Gen.ReferenceIdeal
import proofs.«156180_j91319594647822_2_alg».proof.Proof.Gen.Pre_finite_inputs
import proofs.«156180_j91319594647822_2_alg».proof.Proof.Gen.ReferenceIdeal.Run
import proofs.«156180_j91319594647822_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_p, Cert.Proof.Claims.frame_pi, Cert.Proof.Claims.frame_ri, Cert.Proof.Claims.preserves,
  Cert.Proof.Claims.algebraic⟩

end Cert.Proof

end
